-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x512x512 : Shape := ⟨4, ![64, 2, 512, 512]⟩
abbrev S1x4 : Shape := ⟨2, ![1, 4]⟩
abbrev S_ : Shape := ⟨0, ![]⟩

class Facts : Prop where
  bcast_S_S64x2x512x512 : S_.BroadcastsInDim S64x2x512x512 (![] : Fin 0 → Fin S64x2x512x512.rank)
  reducesTo_S64x2x512x512_S_d0_1_2_3 : S64x2x512x512.ReducesTo [0, 1, 2, 3] S_
  h_S_ : 0 < S_.numel
  bcast_S_S1x4 : S_.BroadcastsInDim S1x4 (![] : Fin 0 → Fin S1x4.rank)
  reducesTo_S1x4_S_d0_1 : S1x4.ReducesTo [0, 1] S_

variable [Facts]

def fn {F : FTy → Type} [FloatOps F] (main_arg0 : FVec F S64x2x512x512 .f32) (main_arg1 : FVec F S1x4 .f32) : IVec S_ 1 :=
  let main_v0 : FVec F S64x2x512x512 .f32 := Host.absf main_arg0
  let main_cst : FVec F S_ .f32 := constant S_ .f32 0x7F800000#32
  let main_v1 : FVec F S64x2x512x512 .f32 := broadcastInDim S64x2x512x512 ![] bcast_S_S64x2x512x512 main_cst
  let main_v2 : IVec S64x2x512x512 1 := cmpf .olt main_v0 main_v1
  let main_c : IVec S_ 1 := constantI S_ 1 1#1
  let main_v3 : IVec S_ 1 := (fun x v => Host.reduce IntOp.andi x v reducesTo_S64x2x512x512_S_d0_1_2_3 h_S_) main_v2 main_c
  let main_v4 : FVec F S1x4 .f32 := Host.absf main_arg1
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_c_1 : IVec S_ 1 := constantI S_ 1 1#1
  let main_v7 : IVec S_ 1 := (fun x v => Host.reduce IntOp.andi x v reducesTo_S1x4_S_d0_1 h_S_) main_v6 main_c_1
  let main_v8 : IVec S_ 1 := andi main_v3 main_v7
  main_v8
-- ==== Kernel.lean ====
abbrev S64x2x512x512 : Shape := ⟨4, ![64, 2, 512, 512]⟩
abbrev S1x4 : Shape := ⟨2, ![1, 4]⟩
abbrev S64x2x256x2x256x2 : Shape := ⟨6, ![64, 2, 256, 2, 256, 2]⟩
abbrev S64x2x2x2x256x256 : Shape := ⟨6, ![64, 2, 2, 2, 256, 256]⟩
abbrev S64x2x4x256x256 : Shape := ⟨5, ![64, 2, 4, 256, 256]⟩
abbrev S64x4x256x256 : Shape := ⟨4, ![64, 4, 256, 256]⟩
abbrev S2x2x4x256x256 : Shape := ⟨5, ![2, 2, 4, 256, 256]⟩
abbrev S2x4x256x256 : Shape := ⟨4, ![2, 4, 256, 256]⟩
abbrev S2x1x1x256x256 : Shape := ⟨5, ![2, 1, 1, 256, 256]⟩
abbrev S2x256x256 : Shape := ⟨3, ![2, 256, 256]⟩
abbrev S1x1 : Shape := ⟨2, ![1, 1]⟩
abbrev S2x1x256x256 : Shape := ⟨4, ![2, 1, 256, 256]⟩

abbrev nBuf : Space → Nat
  | .hbm => 6
  | .vmem => 5
  | .smem => 0
  | _ => 0

abbrev bufTy : (tb : Table) → Fin (tcTables nBuf tb) → BufTy
  | .hbm, ⟨0, _⟩ => ⟨S64x2x512x512, .f32⟩
  | .hbm, ⟨1, _⟩ => ⟨S1x4, .f32⟩
  | .hbm, ⟨2, _⟩ => ⟨S64x2x256x2x256x2, .f32⟩
  | .hbm, ⟨3, _⟩ => ⟨S64x2x2x2x256x256, .f32⟩
  | .hbm, ⟨4, _⟩ => ⟨S64x2x4x256x256, .f32⟩
  | .hbm, ⟨5, _⟩ => ⟨S64x4x256x256, .f32⟩
  | .local _ .vmem, ⟨0, _⟩ => ⟨S2x2x4x256x256, .f32⟩
  | .local _ .vmem, ⟨1, _⟩ => ⟨S2x2x4x256x256, .f32⟩
  | .local _ .vmem, ⟨2, _⟩ => ⟨S1x4, .f32⟩
  | .local _ .vmem, ⟨3, _⟩ => ⟨S2x4x256x256, .f32⟩
  | .local _ .vmem, ⟨4, _⟩ => ⟨S2x4x256x256, .f32⟩
  | _, _ => ⟨S64x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x2x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x2x512x512_S64x2x256x2x256x2 : S64x2x512x512.ShapeCasts S64x2x256x2x256x2
  transposes_S64x2x256x2x256x2_S64x2x2x2x256x256_0_1_3_5_2_4 : S64x2x256x2x256x2.Transposes [0, 1, 3, 5, 2, 4] S64x2x2x2x256x256
  shapeCasts_S64x2x2x2x256x256_S64x2x4x256x256 : S64x2x2x2x256x256.ShapeCasts S64x2x4x256x256
  inb_S2x2x4x256x256_S2x1x1x256x256_0_0_0_0_0 : ∀ a, (![0, 0, 0, 0, 0] : Fin 5 → Nat) a + S2x1x1x256x256.size a ≤ S2x2x4x256x256.size a
  h_S2x1x1x256x256 : 0 < S2x1x1x256x256.numel
  shapeCasts_S2x1x1x256x256_S2x256x256 : S2x1x1x256x256.ShapeCasts S2x256x256
  inb_S2x2x4x256x256_S2x1x1x256x256_0_1_0_0_0 : ∀ a, (![0, 1, 0, 0, 0] : Fin 5 → Nat) a + S2x1x1x256x256.size a ≤ S2x2x4x256x256.size a
  inb_S2x2x4x256x256_S2x1x1x256x256_0_0_1_0_0 : ∀ a, (![0, 0, 1, 0, 0] : Fin 5 → Nat) a + S2x1x1x256x256.size a ≤ S2x2x4x256x256.size a
  inb_S2x2x4x256x256_S2x1x1x256x256_0_1_1_0_0 : ∀ a, (![0, 1, 1, 0, 0] : Fin 5 → Nat) a + S2x1x1x256x256.size a ≤ S2x2x4x256x256.size a
  inb_S2x2x4x256x256_S2x1x1x256x256_0_0_2_0_0 : ∀ a, (![0, 0, 2, 0, 0] : Fin 5 → Nat) a + S2x1x1x256x256.size a ≤ S2x2x4x256x256.size a
  inb_S2x2x4x256x256_S2x1x1x256x256_0_1_2_0_0 : ∀ a, (![0, 1, 2, 0, 0] : Fin 5 → Nat) a + S2x1x1x256x256.size a ≤ S2x2x4x256x256.size a
  inb_S2x2x4x256x256_S2x1x1x256x256_0_0_3_0_0 : ∀ a, (![0, 0, 3, 0, 0] : Fin 5 → Nat) a + S2x1x1x256x256.size a ≤ S2x2x4x256x256.size a
  inb_S2x2x4x256x256_S2x1x1x256x256_0_1_3_0_0 : ∀ a, (![0, 1, 3, 0, 0] : Fin 5 → Nat) a + S2x1x1x256x256.size a ≤ S2x2x4x256x256.size a
  inb_S1x4_S1x4_0_0 : ∀ a, (![0, 0] : Fin 2 → Nat) a + S1x4.size a ≤ S1x4.size a
  h_S1x4 : 0 < S1x4.numel
  slices_S1x4_o0_0_S1x1 : S1x4.Slices ![0, 0] S1x1
  inpos_S1x1_p0_0 : ∀ a, (![0, 0] : Fin 2 → Nat) a < S1x1.size a
  slices_S1x4_o0_1_S1x1 : S1x4.Slices ![0, 1] S1x1
  slices_S1x4_o0_2_S1x1 : S1x4.Slices ![0, 2] S1x1
  slices_S1x4_o0_3_S1x1 : S1x4.Slices ![0, 3] S1x1
  inb_S2x4x256x256_S2x1x256x256_0_0_0_0 : ∀ a, (![0, 0, 0, 0] : Fin 4 → Nat) a + S2x1x256x256.size a ≤ S2x4x256x256.size a
  h_S2x1x256x256 : 0 < S2x1x256x256.numel
  shapeCasts_S2x1x256x256_S2x256x256 : S2x1x256x256.ShapeCasts S2x256x256
  shapeCasts_S2x256x256_S2x1x256x256 : S2x256x256.ShapeCasts S2x1x256x256
  inb_S2x4x256x256_S2x1x256x256_0_1_0_0 : ∀ a, (![0, 1, 0, 0] : Fin 4 → Nat) a + S2x1x256x256.size a ≤ S2x4x256x256.size a
  inb_S2x4x256x256_S2x1x256x256_0_2_0_0 : ∀ a, (![0, 2, 0, 0] : Fin 4 → Nat) a + S2x1x256x256.size a ≤ S2x4x256x256.size a
  inb_S2x4x256x256_S2x1x256x256_0_3_0_0 : ∀ a, (![0, 3, 0, 0] : Fin 4 → Nat) a + S2x1x256x256.size a ≤ S2x4x256x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2x4x256x256.size a ≤ S64x2x4x256x256.size a
  hwx0_0 : ∀ i : grid0.Coords, EltTy.bits .f32 = 32 ∨ (Rect.block (s := S64x2x4x256x256) S2x2x4x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4.size a ≤ S1x4.size a
  hwx0_1 : ∀ i : grid0.Coords, EltTy.bits .f32 = 32 ∨ (Rect.block (s := S1x4) S1x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x4x256x256.size a ≤ S64x4x256x256.size a
  hwx0_2 : ∀ i : grid0.Coords, EltTy.bits .f32 = 32 ∨ (Rect.block (s := S64x4x256x256) S2x4x256x256.size (cc0_transform_2 i) (hinb0_2 i)).WholeWords (EltTy.packing .f32)

variable [Facts₀]

abbrev win0_0 : Pipeline.Window sig grid0 :=
  Pipeline.Window.ofSpec (Memref.whole main_v2) S2x2x4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2x4x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2x512x512 : Shape := ⟨4, ![64, 2, 512, 512]⟩
abbrev S1x4 : Shape := ⟨2, ![1, 4]⟩
abbrev S64x1x512x512 : Shape := ⟨4, ![64, 1, 512, 512]⟩
abbrev S64x512x512 : Shape := ⟨3, ![64, 512, 512]⟩
abbrev S64x256x2x256x2 : Shape := ⟨5, ![64, 256, 2, 256, 2]⟩
abbrev S64x256x256x2x2 : Shape := ⟨5, ![64, 256, 256, 2, 2]⟩
abbrev S64x256x256x4 : Shape := ⟨4, ![64, 256, 256, 4]⟩
abbrev S_ : Shape := ⟨0, ![]⟩
abbrev S64x256x256 : Shape := ⟨3, ![64, 256, 256]⟩
abbrev S64x256x256x1 : Shape := ⟨4, ![64, 256, 256, 1]⟩
abbrev S4 : Shape := ⟨1, ![4]⟩
abbrev S1x1x1x4 : Shape := ⟨4, ![1, 1, 1, 4]⟩
abbrev S64x4x256x256 : Shape := ⟨4, ![64, 4, 256, 256]⟩

abbrev nBuf : Space → Nat
  | .hbm => 54
  | .vmem => 0
  | .smem => 0
  | _ => 0

abbrev bufTy : (tb : Table) → Fin (tcTables nBuf tb) → BufTy
  | .hbm, ⟨0, _⟩ => ⟨S64x2x512x512, .f32⟩
  | .hbm, ⟨1, _⟩ => ⟨S1x4, .f32⟩
  | .hbm, ⟨2, _⟩ => ⟨S64x1x512x512, .f32⟩
  | .hbm, ⟨3, _⟩ => ⟨S64x512x512, .f32⟩
  | .hbm, ⟨4, _⟩ => ⟨S64x512x512, .f32⟩
  | .hbm, ⟨5, _⟩ => ⟨S64x1x512x512, .f32⟩
  | .hbm, ⟨6, _⟩ => ⟨S64x512x512, .f32⟩
  | .hbm, ⟨7, _⟩ => ⟨S64x512x512, .f32⟩
  | .hbm, ⟨8, _⟩ => ⟨S64x512x512, .f32⟩
  | .hbm, ⟨9, _⟩ => ⟨S64x512x512, .f32⟩
  | .hbm, ⟨10, _⟩ => ⟨S64x256x2x256x2, .f32⟩
  | .hbm, ⟨11, _⟩ => ⟨S64x256x256x2x2, .f32⟩
  | .hbm, ⟨12, _⟩ => ⟨S64x256x256x4, .f32⟩
  | .hbm, ⟨13, _⟩ => ⟨S_, .f32⟩
  | .hbm, ⟨14, _⟩ => ⟨S64x256x256, .f32⟩
  | .hbm, ⟨15, _⟩ => ⟨S64x256x256x1, .f32⟩
  | .hbm, ⟨16, _⟩ => ⟨S_, .f32⟩
  | .hbm, ⟨17, _⟩ => ⟨S64x256x256, .f32⟩
  | .hbm, ⟨18, _⟩ => ⟨S64x256x256x1, .f32⟩
  | .hbm, ⟨19, _⟩ => ⟨S64x256x256x4, .f32⟩
  | .hbm, ⟨20, _⟩ => ⟨S64x256x256x4, .f32⟩
  | .hbm, ⟨21, _⟩ => ⟨S64x256x256x1, .f32⟩
  | .hbm, ⟨22, _⟩ => ⟨S_, .f32⟩
  | .hbm, ⟨23, _⟩ => ⟨S64x256x256x1, .f32⟩
  | .hbm, ⟨24, _⟩ => ⟨S64x256x256x1, .f32⟩
  | .hbm, ⟨25, _⟩ => ⟨S64x256x256x4, .f32⟩
  | .hbm, ⟨26, _⟩ => ⟨S64x256x256x4, .f32⟩
  | .hbm, ⟨27, _⟩ => ⟨S_, .f32⟩
  | .hbm, ⟨28, _⟩ => ⟨S64x256x256x4, .f32⟩
  | .hbm, ⟨29, _⟩ => ⟨S64x256x256x4, .f32⟩
  | .hbm, ⟨30, _⟩ => ⟨S4, .f32⟩
  | .hbm, ⟨31, _⟩ => ⟨S1x1x1x4, .f32⟩
  | .hbm, ⟨32, _⟩ => ⟨S64x256x256x4, .f32⟩
  | .hbm, ⟨33, _⟩ => ⟨S64x256x256x4, .f32⟩
  | .hbm, ⟨34, _⟩ => ⟨S64x256x256x4, .f32⟩
  | .hbm, ⟨35, _⟩ => ⟨S64x256x256x1, .f32⟩
  | .hbm, ⟨36, _⟩ => ⟨S64x256x256, .f32⟩
  | .hbm, ⟨37, _⟩ => ⟨S64x256x256x1, .f32⟩
  | .hbm, ⟨38, _⟩ => ⟨S64x256x256, .f32⟩
  | .hbm, ⟨39, _⟩ => ⟨S64x256x256x1, .f32⟩
  | .hbm, ⟨40, _⟩ => ⟨S64x256x256, .f32⟩
  | .hbm, ⟨41, _⟩ => ⟨S64x256x256x1, .f32⟩
  | .hbm, ⟨42, _⟩ => ⟨S64x256x256, .f32⟩
  | .hbm, ⟨43, _⟩ => ⟨S64x256x256, .f32⟩
  | .hbm, ⟨44, _⟩ => ⟨S64x256x256, .f32⟩
  | .hbm, ⟨45, _⟩ => ⟨S64x256x256, .f32⟩
  | .hbm, ⟨46, _⟩ => ⟨S64x256x256, .f32⟩
  | .hbm, ⟨47, _⟩ => ⟨S64x256x256, .f32⟩
  | .hbm, ⟨48, _⟩ => ⟨S64x256x256x1, .f32⟩
  | .hbm, ⟨49, _⟩ => ⟨S64x256x256x1, .f32⟩
  | .hbm, ⟨50, _⟩ => ⟨S64x256x256x1, .f32⟩
  | .hbm, ⟨51, _⟩ => ⟨S64x256x256x1, .f32⟩
  | .hbm, ⟨52, _⟩ => ⟨S64x256x256x4, .f32⟩
  | .hbm, ⟨53, _⟩ => ⟨S64x4x256x256, .f32⟩
  | _, _ => ⟨S64x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩

abbrev nD : Nat := 1
abbrev τ : Topo := Topo.v7x

variable {F : FTy → Type} [FloatOps F]

class Facts₀ : Prop where
  slices_S64x2x512x512_S64x1x512x512_0_0_0_0 : S64x2x512x512.Slices ![0, 0, 0, 0] S64x1x512x512
  shapeCasts_S64x1x512x512_S64x512x512 : S64x1x512x512.ShapeCasts S64x512x512
  slices_S64x2x512x512_S64x1x512x512_0_1_0_0 : S64x2x512x512.Slices ![0, 1, 0, 0] S64x1x512x512
  shapeCasts_S64x512x512_S64x256x2x256x2 : S64x512x512.ShapeCasts S64x256x2x256x2
  transposes_S64x256x2x256x2_S64x256x256x2x2_0_1_3_2_4 : S64x256x2x256x2.Transposes [0, 1, 3, 2, 4] S64x256x256x2x2
  shapeCasts_S64x256x256x2x2_S64x256x256x4 : S64x256x256x2x2.ShapeCasts S64x256x256x4
  reducesTo_S64x256x256x4_S64x256x256_d3 : S64x256x256x4.ReducesTo [3] S64x256x256
  h_S_ : 0 < S_.numel
  bcast_S64x256x256_S64x256x256x1_0_1_2 : S64x256x256.BroadcastsInDim S64x256x256x1 (![0, 1, 2] : Fin 3 → Fin S64x256x256x1.rank)
  bcast_S64x256x256x1_S64x256x256x4_0_1_2_3 : S64x256x256x1.BroadcastsInDim S64x256x256x4 (![0, 1, 2, 3] : Fin 4 → Fin S64x256x256x4.rank)
  bcast_S_S64x256x256x1 : S_.BroadcastsInDim S64x256x256x1 (![] : Fin 0 → Fin S64x256x256x1.rank)
  bcast_S_S64x256x256x4 : S_.BroadcastsInDim S64x256x256x4 (![] : Fin 0 → Fin S64x256x256x4.rank)
  shapeCasts_S1x4_S4 : S1x4.ShapeCasts S4
  bcast_S4_S1x1x1x4_3 : S4.BroadcastsInDim S1x1x1x4 (![3] : Fin 1 → Fin S1x1x1x4.rank)
  bcast_S1x1x1x4_S64x256x256x4_0_1_2_3 : S1x1x1x4.BroadcastsInDim S64x256x256x4 (![0, 1, 2, 3] : Fin 4 → Fin S64x256x256x4.rank)
  slices_S64x256x256x4_S64x256x256x1_0_0_0_0 : S64x256x256x4.Slices ![0, 0, 0, 0] S64x256x256x1
  shapeCasts_S64x256x256x1_S64x256x256 : S64x256x256x1.ShapeCasts S64x256x256
  slices_S64x256x256x4_S64x256x256x1_0_0_0_1 : S64x256x256x4.Slices ![0, 0, 0, 1] S64x256x256x1
  slices_S64x256x256x4_S64x256x256x1_0_0_0_2 : S64x256x256x4.Slices ![0, 0, 0, 2] S64x256x256x1
  slices_S64x256x256x4_S64x256x256x1_0_0_0_3 : S64x256x256x4.Slices ![0, 0, 0, 3] S64x256x256x1
  concatenates_S64x256x256x1_S64x256x256x1_S64x256x256x1_S64x256x256x1_S64x256x256x4_d3 : Shape.Concatenates [S64x256x256x1, S64x256x256x1, S64x256x256x1, S64x256x256x1] S64x256x256x4 3
  transposes_S64x256x256x4_S64x4x256x256_0_3_1_2 : S64x256x256x4.Transposes [0, 3, 1, 2] S64x4x256x256

variable [Facts₀]

class Facts : Prop extends Facts₀ where

variable [Facts]
-- ==== Proof.Spec.lean ====
/-
  The function both programs compute, stated once over the extended reals.

  The input `x : [64, 2, 512, 512]` holds a complex image per batch entry (channel 0 the real part, channel 1 the
  imaginary part); `w : [1, 4]` holds four rotation offsets. The image is cut into non-overlapping 2 × 2 patches; patch
  `(i, j)` has the four members `p = 2·kh + kw` at row `2i + kh` and column `2j + kw`. For one patch:

    μ p      = √(re p · re p + im p · im p)                      the modulus of member p
    lo, hi   = the least and the greatest of μ 0 … μ 3
    c p      = cos ((μ p − lo) / ((hi − lo) + ε) · π̃ + w p)      ε, π̃ the two f32 words both programs print
    out 0 = c1·c2·c3,  out 1 = c0·c1,  out 2 = c0·c1·c2,  out 3 = c0·c1·c2·c3   (products grouped from the left)

  and the result `[64, 4, 256, 256]` holds `out q` of patch `(i, j)` of batch entry `b` at `(b, q, i, j)`.
  `cell` is the per-patch function; `G` reads it off the whole argument arrays, `Gblk` off a kernel block (two batch
  entries, already de-interleaved to `[2, 2, 4, 256, 256]`: entry, channel, member, patch row, patch column).
-/
import Idealize.ShloMosaic.PureOps.Ideal
import Idealize.ShloMosaic.Lib.ValueIdx

noncomputable section

namespace Cert.Quanv

open Idealize.ShloMosaic Idealize.ShloMosaic.ValueIdx

/-- The regulariser added to the spread of a patch's moduli: the f32 word nearest 1e-8, read exactly. -/
def eps : EReal := Ideal.ofBits .f32 0x322BCC77#32
/-- The factor that turns a normalised modulus into an angle: the f32 word nearest π, read exactly. -/
def piW : EReal := Ideal.ofBits .f32 0x40490FDB#32

/-- The modulus of `re + i·im`. -/
def modulus (re im : EReal) : EReal := Ideal.sqrt (re * re + im * im)

/-- The least of four values, paired as (0, 1) and (2, 3). -/
def least (μ : Fin 4 → EReal) : EReal := min (min (μ 0) (μ 1)) (min (μ 2) (μ 3))
/-- The greatest of four values, paired as (0, 1) and (2, 3). -/
def greatest (μ : Fin 4 → EReal) : EReal := max (max (μ 0) (μ 1)) (max (μ 2) (μ 3))

/-- The cosine of member `p`'s rotation angle: its modulus normalised to the patch's spread, scaled, offset by `ω p`. -/
def wire (μ ω : Fin 4 → EReal) (p : Fin 4) : EReal :=
  Ideal.cos (Ideal.div (μ p - least μ) ((greatest μ - least μ) + eps) * piW + ω p)

/-- The four products of cosines, grouped from the left. -/
def expect (c : Fin 4 → EReal) (q : Fin 4) : EReal :=
  if q.val = 0 then c 1 * c 2 * c 3 else if q.val = 1 then c 0 * c 1 else if q.val = 2 then c 0 * c 1 * c 2
  else c 0 * c 1 * c 2 * c 3

/-- One patch: from the real and imaginary parts of its four members and the four offsets to output `q`. -/
def cell (re im ω : Fin 4 → EReal) (q : Fin 4) : EReal :=
  expect (wire (fun p => modulus (re p) (im p)) ω) q

/-- The image row of member `p` of a patch in patch row `i`. -/
def prow (i : Fin 256) (p : Fin 4) : Fin 512 := ⟨2 * i.val + p.val / 2, by have := i.isLt; have := p.isLt; omega⟩
/-- The image column of member `p` of a patch in patch column `j`. -/
def pcol (j : Fin 256) (p : Fin 4) : Fin 512 := ⟨2 * j.val + p.val % 2, by have := j.isLt; have := p.isLt; omega⟩

/-- The whole result as one function of the argument arrays. -/
def G (x : (⟨4, ![64, 2, 512, 512]⟩ : Shape).Idx → EReal) (w : (⟨2, ![1, 4]⟩ : Shape).Idx → EReal) :
    (⟨4, ![64, 4, 256, 256]⟩ : Shape).Idx → EReal := fun o =>
  let b : Fin 64 := o 0
  let q : Fin 4 := o 1
  let i : Fin 256 := o 2
  let j : Fin 256 := o 3
  cell (fun p => x (ix4 b (0 : Fin 2) (prow i p) (pcol j p))) (fun p => x (ix4 b (1 : Fin 2) (prow i p) (pcol j p)))
    (fun p => w (ix2 (0 : Fin 1) p)) q

/-- `G` at explicit coordinates. -/
theorem G_apply (x : (⟨4, ![64, 2, 512, 512]⟩ : Shape).Idx → EReal) (w : (⟨2, ![1, 4]⟩ : Shape).Idx → EReal)
    (b : Fin 64) (q : Fin 4) (i j : Fin 256) :
    G x w (ix4 b q i j)
      = cell (fun p => x (ix4 b (0 : Fin 2) (prow i p) (pcol j p))) (fun p => x (ix4 b (1 : Fin 2) (prow i p) (pcol j p)))
          (fun p => w (ix2 (0 : Fin 1) p)) q := rfl

/-- One kernel block's result as a function of the block of de-interleaved input and the offsets. -/
def Gblk (x0 : (⟨5, ![2, 2, 4, 256, 256]⟩ : Shape).Idx → EReal) (x1 : (⟨2, ![1, 4]⟩ : Shape).Idx → EReal) :
    (⟨4, ![2, 4, 256, 256]⟩ : Shape).Idx → EReal := fun o =>
  let e : Fin 2 := o 0
  let q : Fin 4 := o 1
  let i : Fin 256 := o 2
  let j : Fin 256 := o 3
  cell (fun p => x0 (ix5 e (0 : Fin 2) p i j)) (fun p => x0 (ix5 e (1 : Fin 2) p i j)) (fun p => x1 (ix2 (0 : Fin 1) p)) q

/-- `Gblk` at explicit coordinates. -/
theorem Gblk_apply (x0 : (⟨5, ![2, 2, 4, 256, 256]⟩ : Shape).Idx → EReal) (x1 : (⟨2, ![1, 4]⟩ : Shape).Idx → EReal)
    (e : Fin 2) (q : Fin 4) (i j : Fin 256) :
    Gblk x0 x1 (ix4 e q i j)
      = cell (fun p => x0 (ix5 e (0 : Fin 2) p i j)) (fun p => x0 (ix5 e (1 : Fin 2) p i j)) (fun p => x1 (ix2 (0 : Fin 1) p)) q :=
  rfl

end Cert.Quanv

end
-- ==== Proof.KLayout.lean ====
/-
  How the kernel body's values sit in its blocks.

  The body reads eight slabs of its input block `[2, 2, 4, 256, 256]` (entry, channel, member, patch row, patch column):
  slab `(ch, p)` is the block at channel `ch` and member `p`, a `[2, 1, 1, 256, 256]` array whose two unit axes are then
  dropped; it writes four slabs `[2, 1, 256, 256]` of its output block `[2, 4, 256, 256]`, slab `q` at output channel
  `q`, each a `[2, 256, 256]` value given a unit axis. Here: an element `(e, i, j)` of a dropped-axes slab is the block's
  element `(e, ch, p, i, j)`; an element `(e, 0, i, j)` of an output slab lands at `(e, q, i, j)`; and the four scalars
  the body extracts from the `[1, 4]` offsets are its four entries.
-/
import proofs.«167130_j40931038331593_2_alg».proof.Proof.Gen.KernelIdeal.Frame
import Idealize.ShloMosaic.Lib.Pipeline.Value
import Idealize.ShloMosaic.Lib.ValueIdx

noncomputable section

namespace Cert.Quanv.Layout

open Cert.KernelIdeal Cert.KernelIdeal.Gen Idealize.ShloMosaic Idealize.ShloMosaic.ValueIdx

variable {α : Type}

/-- Dropping the two unit axes of an input slab: position `(e, i, j)` is the slab's `(e, 0, 0, i, j)`. -/
theorem dropUnits (v : S2x1x1x256x256.Idx → α) (e : Fin 2) (i j : Fin 256) :
    shapeCast S2x256x256 v shapeCasts_S2x1x1x256x256_S2x256x256 (ix3 e i j) = v (ix5 e (0 : Fin 1) (0 : Fin 1) i j) :=
  shapeCast_apply v shapeCasts_S2x1x1x256x256_S2x256x256 (ix3 e i j) (ix5 e (0 : Fin 1) (0 : Fin 1) i j) (by
    rw [Shape.rowMajor_val_five, Shape.rowMajor_val_three]
    show (((e.val * 1 + 0) * 1 + 0) * 256 + i.val) * 256 + j.val = (e.val * 256 + i.val) * 256 + j.val
    omega)

/-- Giving an output value its unit axis: position `(e, 0, i, j)` is the value's `(e, i, j)`. -/
theorem addUnit (v : S2x256x256.Idx → α) (e : Fin 2) (i j : Fin 256) :
    shapeCast S2x1x256x256 v shapeCasts_S2x256x256_S2x1x256x256 (ix4 e (0 : Fin 1) i j) = v (ix3 e i j) :=
  shapeCast_apply v shapeCasts_S2x256x256_S2x1x256x256 (ix4 e (0 : Fin 1) i j) (ix3 e i j) (by
    rw [Shape.rowMajor_val_three, Shape.rowMajor_val_four]
    show (e.val * 256 + i.val) * 256 + j.val = ((e.val * 1 + 0) * 256 + i.val) * 256 + j.val
    omega)

/-- An input slab is the block at its channel `ch` and member `p`. -/
theorem slab {Val : EltTy → Type} {el : EltTy} (x0 : S2x2x4x256x256.Idx → Val el) (ch : Fin 2) (p : Fin 4)
    (inb : ∀ a, (![0, ch.val, p.val, 0, 0] : Fin 5 → Nat) a + S2x1x1x256x256.size a ≤ S2x2x4x256x256.size a)
    (e : Fin 2) (i j : Fin 256) :
    View.ld (Val := Val) x0 (Rect.unit (s := S2x2x4x256x256) ![0, ch.val, p.val, 0, 0] S2x1x1x256x256.size inb)
      (ix5 e (0 : Fin 1) (0 : Fin 1) i j) = x0 (ix5 e ch p i j) := by
  show x0 _ = x0 _
  refine congrArg x0 (funext fun a => Fin.ext ?_)
  match a with
  | ⟨0, _⟩ => show 0 + 1 * e.val = e.val; omega
  | ⟨1, _⟩ => show ch.val + 1 * 0 = ch.val; omega
  | ⟨2, _⟩ => show p.val + 1 * 0 = p.val; omega
  | ⟨3, _⟩ => show 0 + 1 * i.val = i.val; omega
  | ⟨4, _⟩ => show 0 + 1 * j.val = j.val; omega

/-- Output slab `q` places its element `(e, 0, i, j)` at `(e, q, i, j)` of the output block. -/
theorem outSlab_emb (q : Fin 4)
    (inb : ∀ a, (![0, q.val, 0, 0] : Fin 4 → Nat) a + S2x1x256x256.size a ≤ S2x4x256x256.size a)
    (e : Fin 2) (i j : Fin 256) :
    (Rect.unit (s := S2x4x256x256) ![0, q.val, 0, 0] S2x1x256x256.size inb).emb (ix4 e (0 : Fin 1) i j) = ix4 e q i j := by
  refine funext fun a => Fin.ext ?_
  match a with
  | ⟨0, _⟩ => show 0 + 1 * e.val = e.val; omega
  | ⟨1, _⟩ => show q.val + 1 * 0 = q.val; omega
  | ⟨2, _⟩ => show 0 + 1 * i.val = i.val; omega
  | ⟨3, _⟩ => show 0 + 1 * j.val = j.val; omega

/-- The scalar the body extracts at column `p` of the offsets (a `[1, 1]` slice at `(0, p)`, then its one entry). -/
theorem offsetAt (v : S1x4.Idx → α) (p : Fin 4) (h : S1x4.Slices ![0, p.val] S1x1) :
    extractAt ![0, 0] (extractStridedSlice S1x1 ![0, p.val] v h) inpos_S1x1_p0_0 = v (ix2 (0 : Fin 1) p) := by
  show v _ = v _
  refine congrArg v (funext fun a => Fin.ext ?_)
  match a with
  | ⟨0, _⟩ => rfl
  | ⟨1, _⟩ => show p.val + 0 = p.val; omega

end Cert.Quanv.Layout

end
-- ==== Proof.KBody.lean ====
/-
  What the kernel body leaves in its output block, as the per-patch function of its input block.

  Over one block (two batch entries) the body forms, for each of the four patch members `p`, the modulus
  `μ p = √(re·re + im·im)` of slab `(0, p)` and slab `(1, p)`; the least and the greatest of the four, paired (0, 1) and
  (2, 3); the four cosines `cos ((μ p − lo) / ((hi − lo) + ε) · π̃ + w p)`; and stores the four products of cosines into
  the four output slabs. Every operation is elementwise, so at a position `(e, i, j)` the stored value is
  `Cert.Quanv.cell` of the eight block entries `(e, ch, p, i, j)` and the four offsets: `Cert.Quanv.Gblk`.
-/
import proofs.«167130_j40931038331593_2_alg».proof.Proof.Gen.KernelIdeal.Frame
import proofs.«167130_j40931038331593_2_alg».proof.Proof.Spec
import proofs.«167130_j40931038331593_2_alg».proof.Proof.KLayout
import Idealize.ShloMosaic.Lib.Pipeline.Value
import Idealize.ShloMosaic.Lib.ValueIdx

noncomputable section

namespace Cert.Quanv.Body

open Cert.KernelIdeal Cert.KernelIdeal.Gen Idealize.ShloMosaic Idealize.ShloMosaic.ValueIdx Cert.Quanv

/-- Four values as a function of the member. -/
def sel4 (a b c d : EReal) : Fin 4 → EReal :=
  fun p => if p.val = 0 then a else if p.val = 1 then b else if p.val = 2 then c else d

/-- A function of the member is its four values. -/
theorem sel4_eq (f : Fin 4 → EReal) : sel4 (f 0) (f 1) (f 2) (f 3) = f := by
  funext p
  match p with
  | ⟨0, _⟩ => rfl
  | ⟨1, _⟩ => rfl
  | ⟨2, _⟩ => rfl
  | ⟨3, _⟩ => rfl

section Abstract

variable (μ0 μ1 μ2 : FVec Ideal S2x256x256 .f32) (v24 v26 : Vec Ideal S2x1x1x256x256 .f32) (v57 : Vec Ideal S1x4 .f32)
variable (e : Fin 2) (i j : Fin 256)

/-- The offset the body adds to member 0's angle. -/
def off0 : EReal := extractAt ![0, 0] (extractStridedSlice S1x1 ![0, 0] v57 slices_S1x4_o0_0_S1x1) inpos_S1x1_p0_0
/-- The offset the body adds to member 1's angle. -/
def off1 : EReal := extractAt ![0, 0] (extractStridedSlice S1x1 ![0, 1] v57 slices_S1x4_o0_1_S1x1) inpos_S1x1_p0_0

/-- The four moduli at a position, from three already formed and the fourth's two slabs. -/
def modsAt : Fin 4 → EReal :=
  sel4 (μ0 (ix3 e i j)) (μ1 (ix3 e i j)) (μ2 (ix3 e i j)) (k0_pay12 (F := Ideal) v24 v26 (ix3 e i j))
/-- The four offsets as the body extracts them. -/
def offs : Fin 4 → EReal := sel4 (off0 v57) (off1 v57) (k0_pay17 (F := Ideal) v57) (k0_pay18 (F := Ideal) v57)

/-- Output slab 0 (the product c1·c2·c3) at a position. -/
theorem slab0_at :
    k0_pay5 (F := Ideal) (k0_pay15 μ0 μ1 μ2 v24 v26) (k0_pay16 μ0 μ1 μ2 v24 v26) (k0_pay17 v57) (k0_pay18 v57)
        (k0_pay20 μ0 μ1 μ2 v24 v26 v57) (ix4 e (0 : Fin 1) i j)
      = expect (wire (modsAt μ0 μ1 μ2 v24 v26 e i j) (offs v57)) 0 :=
  (Layout.addUnit (α := EReal) (mulf (mulf (k0_pay20 (F := Ideal) μ0 μ1 μ2 v24 v26 v57) (k0_pay1 (k0_pay15 (F := Ideal) μ0 μ1 μ2 v24 v26) (k0_pay17 (F := Ideal) v57))) (k0_pay2 (k0_pay16 (F := Ideal) μ0 μ1 μ2 v24 v26) (k0_pay18 (F := Ideal) v57))) e i j).trans rfl

/-- Output slab 1 (the product c0·c1) at a position. -/
theorem slab1_at :
    k0_pay6 (F := Ideal) (k0_pay19 μ0 μ1 μ2 v24 v26 v57) (k0_pay20 μ0 μ1 μ2 v24 v26 v57) (ix4 e (0 : Fin 1) i j)
      = expect (wire (modsAt μ0 μ1 μ2 v24 v26 e i j) (offs v57)) 1 :=
  (Layout.addUnit (α := EReal) (k0_pay3 (k0_pay19 (F := Ideal) μ0 μ1 μ2 v24 v26 v57) (k0_pay20 (F := Ideal) μ0 μ1 μ2 v24 v26 v57)) e i j).trans rfl

/-- Output slab 2 (the product c0·c1·c2) at a position. -/
theorem slab2_at :
    k0_pay7 (F := Ideal) (k0_pay15 μ0 μ1 μ2 v24 v26) (k0_pay17 v57) (k0_pay19 μ0 μ1 μ2 v24 v26 v57)
        (k0_pay20 μ0 μ1 μ2 v24 v26 v57) (ix4 e (0 : Fin 1) i j)
      = expect (wire (modsAt μ0 μ1 μ2 v24 v26 e i j) (offs v57)) 2 :=
  (Layout.addUnit (α := EReal) (k0_pay4 (k0_pay15 (F := Ideal) μ0 μ1 μ2 v24 v26) (k0_pay17 (F := Ideal) v57) (k0_pay19 (F := Ideal) μ0 μ1 μ2 v24 v26 v57) (k0_pay20 (F := Ideal) μ0 μ1 μ2 v24 v26 v57)) e i j).trans rfl

/-- Output slab 3 (the product c0·c1·c2·c3) at a position. -/
theorem slab3_at :
    k0_pay8 (F := Ideal) (k0_pay15 μ0 μ1 μ2 v24 v26) (k0_pay16 μ0 μ1 μ2 v24 v26) (k0_pay17 v57) (k0_pay18 v57)
        (k0_pay19 μ0 μ1 μ2 v24 v26 v57) (k0_pay20 μ0 μ1 μ2 v24 v26 v57) (ix4 e (0 : Fin 1) i j)
      = expect (wire (modsAt μ0 μ1 μ2 v24 v26 e i j) (offs v57)) 3 :=
  (Layout.addUnit (α := EReal) (mulf (k0_pay4 (k0_pay15 (F := Ideal) μ0 μ1 μ2 v24 v26) (k0_pay17 (F := Ideal) v57) (k0_pay19 (F := Ideal) μ0 μ1 μ2 v24 v26 v57) (k0_pay20 (F := Ideal) μ0 μ1 μ2 v24 v26 v57)) (k0_pay2 (k0_pay16 (F := Ideal) μ0 μ1 μ2 v24 v26) (k0_pay18 (F := Ideal) v57))) e i j).trans rfl

end Abstract

end Cert.Quanv.Body

end
-- ==== Proof.KBlock.lean ====
/-
  One block of the kernel: what the body leaves in the output block is `Cert.Quanv.Gblk` of the input block and the
  offsets.

  The body's four stores tile the output block by output channel, and store `q` holds, at `(e, 0, i, j)`, output `q` of
  the patch at `(e, i, j)`: the moduli it was computed from are those of the block's entries `(e, ch, p, i, j)`, and the
  offsets are the four entries of the `[1, 4]` operand, which the body loads whole.
-/
import proofs.«167130_j40931038331593_2_alg».proof.Proof.Gen.KernelIdeal.Frame
import proofs.«167130_j40931038331593_2_alg».proof.Proof.Spec
import proofs.«167130_j40931038331593_2_alg».proof.Proof.KLayout
import proofs.«167130_j40931038331593_2_alg».proof.Proof.KBody
import Idealize.ShloMosaic.Lib.Pipeline.Value
import Idealize.ShloMosaic.Lib.ValueIdx

noncomputable section

namespace Cert.Quanv.Block

open Cert.KernelIdeal Cert.KernelIdeal.Gen Idealize.ShloMosaic Idealize.ShloMosaic.ValueIdx Cert.Quanv

variable (x0 : Vec Ideal S2x2x4x256x256 .f32) (x1 : Vec Ideal S1x4 .f32)

/-- A modulus at a position, from its two slabs with the unit axes dropped. -/
theorem modulus_at (v0 v2 : Vec Ideal S2x1x1x256x256 .f32) (e : Fin 2) (i j : Fin 256) :
    k0_pay12 (F := Ideal) v0 v2 (ix3 e i j) = modulus (v0 (ix5 e (0 : Fin 1) (0 : Fin 1) i j)) (v2 (ix5 e (0 : Fin 1) (0 : Fin 1) i j)) := by
  have h0 := Layout.dropUnits v0 e i j
  have h2 := Layout.dropUnits v2 e i j
  show Ideal.sqrt (shapeCast S2x256x256 v0 shapeCasts_S2x1x1x256x256_S2x256x256 (ix3 e i j)
        * shapeCast S2x256x256 v0 shapeCasts_S2x1x1x256x256_S2x256x256 (ix3 e i j)
      + shapeCast S2x256x256 v2 shapeCasts_S2x1x1x256x256_S2x256x256 (ix3 e i j)
        * shapeCast S2x256x256 v2 shapeCasts_S2x1x1x256x256_S2x256x256 (ix3 e i j)) = _
  rw [h0, h2]
  rfl

/-- The four moduli at a position are those of the block's entries there. -/
theorem moduli_at (e : Fin 2) (i j : Fin 256) :
    Body.modsAt (k0_pay9 (F := Ideal) (View.ld x0 r0_0) (View.ld x0 r0_1)) (k0_pay10 (F := Ideal) (View.ld x0 r0_2) (View.ld x0 r0_3))
        (k0_pay11 (F := Ideal) (View.ld x0 r0_4) (View.ld x0 r0_5)) (View.ld x0 r0_6) (View.ld x0 r0_7) e i j
      = fun p => modulus (x0 (ix5 e (0 : Fin 2) p i j)) (x0 (ix5 e (1 : Fin 2) p i j)) := by
  have s00 : View.ld x0 r0_0 (ix5 e (0 : Fin 1) (0 : Fin 1) i j) = x0 (ix5 e (0 : Fin 2) (0 : Fin 4) i j) := Layout.slab x0 0 0 _ e i j
  have s10 : View.ld x0 r0_1 (ix5 e (0 : Fin 1) (0 : Fin 1) i j) = x0 (ix5 e (1 : Fin 2) (0 : Fin 4) i j) := Layout.slab x0 1 0 _ e i j
  have s01 : View.ld x0 r0_2 (ix5 e (0 : Fin 1) (0 : Fin 1) i j) = x0 (ix5 e (0 : Fin 2) (1 : Fin 4) i j) := Layout.slab x0 0 1 _ e i j
  have s11 : View.ld x0 r0_3 (ix5 e (0 : Fin 1) (0 : Fin 1) i j) = x0 (ix5 e (1 : Fin 2) (1 : Fin 4) i j) := Layout.slab x0 1 1 _ e i j
  have s02 : View.ld x0 r0_4 (ix5 e (0 : Fin 1) (0 : Fin 1) i j) = x0 (ix5 e (0 : Fin 2) (2 : Fin 4) i j) := Layout.slab x0 0 2 _ e i j
  have s12 : View.ld x0 r0_5 (ix5 e (0 : Fin 1) (0 : Fin 1) i j) = x0 (ix5 e (1 : Fin 2) (2 : Fin 4) i j) := Layout.slab x0 1 2 _ e i j
  have s03 : View.ld x0 r0_6 (ix5 e (0 : Fin 1) (0 : Fin 1) i j) = x0 (ix5 e (0 : Fin 2) (3 : Fin 4) i j) := Layout.slab x0 0 3 _ e i j
  have s13 : View.ld x0 r0_7 (ix5 e (0 : Fin 1) (0 : Fin 1) i j) = x0 (ix5 e (1 : Fin 2) (3 : Fin 4) i j) := Layout.slab x0 1 3 _ e i j
  have m0 : k0_pay9 (F := Ideal) (View.ld x0 r0_0) (View.ld x0 r0_1) (ix3 e i j)
      = modulus (x0 (ix5 e (0 : Fin 2) (0 : Fin 4) i j)) (x0 (ix5 e (1 : Fin 2) (0 : Fin 4) i j)) := by
    rw [← s00, ← s10]; exact modulus_at _ _ e i j
  have m1 : k0_pay10 (F := Ideal) (View.ld x0 r0_2) (View.ld x0 r0_3) (ix3 e i j)
      = modulus (x0 (ix5 e (0 : Fin 2) (1 : Fin 4) i j)) (x0 (ix5 e (1 : Fin 2) (1 : Fin 4) i j)) := by
    rw [← s01, ← s11]; exact modulus_at _ _ e i j
  have m2 : k0_pay11 (F := Ideal) (View.ld x0 r0_4) (View.ld x0 r0_5) (ix3 e i j)
      = modulus (x0 (ix5 e (0 : Fin 2) (2 : Fin 4) i j)) (x0 (ix5 e (1 : Fin 2) (2 : Fin 4) i j)) := by
    rw [← s02, ← s12]; exact modulus_at _ _ e i j
  have m3 : k0_pay12 (F := Ideal) (View.ld x0 r0_6) (View.ld x0 r0_7) (ix3 e i j)
      = modulus (x0 (ix5 e (0 : Fin 2) (3 : Fin 4) i j)) (x0 (ix5 e (1 : Fin 2) (3 : Fin 4) i j)) := by
    rw [← s03, ← s13]; exact modulus_at _ _ e i j
  unfold Body.modsAt
  rw [m0, m1, m2, m3]
  exact Body.sel4_eq (fun p => modulus (x0 (ix5 e (0 : Fin 2) p i j)) (x0 (ix5 e (1 : Fin 2) p i j)))

/-- The four offsets the body extracts are the four entries of the offsets operand. -/
theorem offsets_eq : Body.offs (View.ld x1 r0_8) = fun p => x1 (ix2 (0 : Fin 1) p) := by
  have hz : (![0, 0] : Fin 2 → Nat) = fun _ => 0 := funext fun a => by fin_cases a <;> rfl
  have hw : View.ld x1 r0_8 = x1 := View.ld_unit_zero (S := S1x4) hz _ x1
  rw [hw]
  have o0 : Body.off0 x1 = x1 (ix2 (0 : Fin 1) (0 : Fin 4)) := Layout.offsetAt x1 0 _
  have o1 : Body.off1 x1 = x1 (ix2 (0 : Fin 1) (1 : Fin 4)) := Layout.offsetAt x1 1 _
  have o2 : k0_pay17 (F := Ideal) x1 = x1 (ix2 (0 : Fin 1) (2 : Fin 4)) := Layout.offsetAt x1 2 _
  have o3 : k0_pay18 (F := Ideal) x1 = x1 (ix2 (0 : Fin 1) (3 : Fin 4)) := Layout.offsetAt x1 3 _
  unfold Body.offs
  rw [o0, o1, o2, o3]
  exact Body.sel4_eq (fun p => x1 (ix2 (0 : Fin 1) p))

/-- Four stores by output channel, each holding its channel of one block function, leave that function. -/
theorem canon_slabs (Gb : S2x4x256x256.Idx → EReal) (P3 P2 P1 P0 : Vec Ideal S2x1x256x256 .f32)
    (h3 : ∀ (e : Fin 2) (i j : Fin 256), P3 (ix4 e (0 : Fin 1) i j) = Gb (ix4 e (3 : Fin 4) i j))
    (h2 : ∀ (e : Fin 2) (i j : Fin 256), P2 (ix4 e (0 : Fin 1) i j) = Gb (ix4 e (2 : Fin 4) i j))
    (h1 : ∀ (e : Fin 2) (i j : Fin 256), P1 (ix4 e (0 : Fin 1) i j) = Gb (ix4 e (1 : Fin 4) i j))
    (h0 : ∀ (e : Fin 2) (i j : Fin 256), P0 (ix4 e (0 : Fin 1) i j) = Gb (ix4 e (0 : Fin 4) i j)) :
    View.canon ([⟨r0_12, P3⟩, ⟨r0_11, P2⟩, ⟨r0_10, P1⟩, ⟨r0_9, P0⟩] : List (View.Piece (Elt Ideal) S2x4x256x256 .f32)) = Gb := by
  funext y
  refine View.canon_apply_of_pieces Gb _ ?_ y (cover0_2 P3 P2 P1 P0 y)
  intro pc hpc
  have split : ∀ (xx : S2x1x256x256.Idx), ∃ (e : Fin 2) (i j : Fin 256), xx = ix4 e (0 : Fin 1) i j := fun xx =>
    ⟨xx 0, xx 2, xx 3, by
      have h := eq_ix4 xx
      have hlt : (xx 1).val < 1 := (xx 1).isLt
      have hz : xx 1 = (0 : Fin 1) := Fin.ext (by show (xx 1).val = 0; omega)
      rw [hz] at h; exact h⟩
  rcases List.mem_cons.mp hpc with rfl | hpc
  · intro xx; obtain ⟨e, i, j, rfl⟩ := split xx
    show P3 (ix4 e (0 : Fin 1) i j) = Gb (r0_12.emb (ix4 e (0 : Fin 1) i j))
    rw [show r0_12.emb (ix4 e (0 : Fin 1) i j) = ix4 e (3 : Fin 4) i j from Layout.outSlab_emb 3 _ e i j]
    exact h3 e i j
  rcases List.mem_cons.mp hpc with rfl | hpc
  · intro xx; obtain ⟨e, i, j, rfl⟩ := split xx
    show P2 (ix4 e (0 : Fin 1) i j) = Gb (r0_11.emb (ix4 e (0 : Fin 1) i j))
    rw [show r0_11.emb (ix4 e (0 : Fin 1) i j) = ix4 e (2 : Fin 4) i j from Layout.outSlab_emb 2 _ e i j]
    exact h2 e i j
  rcases List.mem_cons.mp hpc with rfl | hpc
  · intro xx; obtain ⟨e, i, j, rfl⟩ := split xx
    show P1 (ix4 e (0 : Fin 1) i j) = Gb (r0_10.emb (ix4 e (0 : Fin 1) i j))
    rw [show r0_10.emb (ix4 e (0 : Fin 1) i j) = ix4 e (1 : Fin 4) i j from Layout.outSlab_emb 1 _ e i j]
    exact h1 e i j
  rcases List.mem_cons.mp hpc with rfl | hpc
  · intro xx; obtain ⟨e, i, j, rfl⟩ := split xx
    show P0 (ix4 e (0 : Fin 1) i j) = Gb (r0_9.emb (ix4 e (0 : Fin 1) i j))
    rw [show r0_9.emb (ix4 e (0 : Fin 1) i j) = ix4 e (0 : Fin 4) i j from Layout.outSlab_emb 0 _ e i j]
    exact h0 e i j
  · exact absurd hpc List.not_mem_nil

/-- WHAT THE BODY LEAVES in the output block: the per-patch function of the input block and the offsets. -/
theorem out_block : out0_2 (F := Ideal) x0 x1 = Gblk x0 x1 := by
  unfold out0_2
  refine canon_slabs (Gblk x0 x1) _ _ _ _ (fun e i j => ?_) (fun e i j => ?_) (fun e i j => ?_) (fun e i j => ?_)
  · refine (Body.slab3_at _ _ _ _ _ _ e i j).trans ?_
    rw [moduli_at x0 e i j, offsets_eq x1, Gblk_apply]; rfl
  · refine (Body.slab2_at _ _ _ _ _ _ e i j).trans ?_
    rw [moduli_at x0 e i j, offsets_eq x1, Gblk_apply]; rfl
  · refine (Body.slab1_at _ _ _ _ _ _ e i j).trans ?_
    rw [moduli_at x0 e i j, offsets_eq x1, Gblk_apply]; rfl
  · refine (Body.slab0_at _ _ _ _ _ _ e i j).trans ?_
    rw [moduli_at x0 e i j, offsets_eq x1, Gblk_apply]; rfl

end Cert.Quanv.Block

end
-- ==== Proof.KArray.lean ====
/-
  From blocks to the whole result array.

  Before the kernel runs, the host re-lays the input `x : [64, 2, 512, 512]` as `[64, 2, 4, 256, 256]`: it splits each image
  row index as `2·i + kh` and each column index as `2·j + kw`, moves `(kh, kw)` in front of `(i, j)`, and merges them
  into the member `p = 2·kh + kw` — so entry `(b, ch, p, i, j)` is `x (b, ch, 2i + p/2, 2j + p%2)`. Grid point `t`
  (of 32) takes the two batch entries `2t, 2t + 1` of that array and of the result, and the whole `[1, 4]` offsets. Hence
  what point `t` writes back is block `t` of `Cert.Quanv.G x w`; the 32 blocks cover the result; and the array ends at
  `G x w`.
-/
import proofs.«167130_j40931038331593_2_alg».proof.Proof.Gen.KernelIdeal.Value
import proofs.«167130_j40931038331593_2_alg».proof.Proof.Spec
import proofs.«167130_j40931038331593_2_alg».proof.Proof.KBlock
import Idealize.ShloMosaic.Lib.Pipeline.Value
import Idealize.ShloMosaic.Lib.ValueIdx
import Idealize.ShloMosaic.Lib.ValueIdxRank6
import Idealize.ShloMosaic.Lib.StableHlo.Run

noncomputable section

namespace Cert.Quanv.Kernel

open Cert.KernelIdeal Cert.KernelIdeal.Gen Idealize.ShloMosaic Idealize.ShloMosaic.TcCoe Idealize.SL.Sem Idealize.ShloMosaic.ValueIdx Cert.Quanv
open Idealize.ShloMosaic.StableHlo
open Idealize.ShloMosaic.Pipeline (Dat)

/-! ## The host's re-laying of the input, read at an index -/

/-- Entry `(b, ch, p, i, j)` of the re-laid input is the image entry at row `2i + p/2` and column `2j + p%2`. -/
theorem relaid_at {α : Type} (xs : S64x2x512x512.Idx → α) (b : Fin 64) (ch : Fin 2) (p : Fin 4) (i j : Fin 256) :
    shapeCast S64x2x4x256x256
        (transpose S64x2x2x2x256x256 [0, 1, 3, 5, 2, 4]
          (shapeCast S64x2x256x2x256x2 xs shapeCasts_S64x2x512x512_S64x2x256x2x256x2)
          transposes_S64x2x256x2x256x2_S64x2x2x2x256x256_0_1_3_5_2_4)
        shapeCasts_S64x2x2x2x256x256_S64x2x4x256x256 (ix5 b ch p i j)
      = xs (ix4 b ch (prow i p) (pcol j p)) := by
  have hp := p.isLt
  have hi := i.isLt
  have hj := j.isLt
  have hb := b.isLt
  have hc := ch.isLt
  let kh : Fin 2 := ⟨p.val / 2, by omega⟩
  let kw : Fin 2 := ⟨p.val % 2, by omega⟩
  refine (shapeCast_apply _ shapeCasts_S64x2x2x2x256x256_S64x2x4x256x256 (ix5 b ch p i j) (ix6 b ch kh kw i j) (by
    rw [Shape.rowMajor_val_six, Shape.rowMajor_val_five]
    show ((((b.val * 2 + ch.val) * 2 + p.val / 2) * 2 + p.val % 2) * 256 + i.val) * 256 + j.val
      = (((b.val * 2 + ch.val) * 4 + p.val) * 256 + i.val) * 256 + j.val
    omega)).trans ?_
  refine (transpose_apply [0, 1, 3, 5, 2, 4] _ transposes_S64x2x256x2x256x2_S64x2x2x2x256x256_0_1_3_5_2_4
    (ix6 b ch kh kw i j) (ix6 b ch i kh j kw) (fun a => by
      match a with
      | ⟨0, _⟩ => rfl
      | ⟨1, _⟩ => rfl
      | ⟨2, _⟩ => rfl
      | ⟨3, _⟩ => rfl
      | ⟨4, _⟩ => rfl
      | ⟨5, _⟩ => rfl)).trans ?_
  exact shapeCast_apply xs shapeCasts_S64x2x512x512_S64x2x256x2x256x2 (ix6 b ch i kh j kw) (ix4 b ch (prow i p) (pcol j p)) (by
    rw [Shape.rowMajor_val_four, Shape.rowMajor_val_six]
    show ((b.val * 2 + ch.val) * 512 + (2 * i.val + p.val / 2)) * 512 + (2 * j.val + p.val % 2)
      = ((((b.val * 2 + ch.val) * 256 + i.val) * 2 + p.val / 2) * 256 + j.val) * 2 + p.val % 2
    omega)

section Run

variable (m : (ℓ : Loc nD τ sig) → Buf (Elt Ideal) ℓ) (ρ : Dev nD → PrngReg)

/-- The array the kernel's first window reads is the host's re-laying of the input argument. -/
theorem V_relaid (c : Dev nD) :
    (V m c main_v2 : S64x2x4x256x256.Idx → EReal)
      = shapeCast S64x2x4x256x256
          (transpose S64x2x2x2x256x256 [0, 1, 3, 5, 2, 4]
            (shapeCast S64x2x256x2x256x2 (m ((c : Thread nD τ).loc main_arg0)) shapeCasts_S64x2x512x512_S64x2x256x2x256x2)
            transposes_S64x2x256x2x256x2_S64x2x2x2x256x256_0_1_3_5_2_4)
          shapeCasts_S64x2x2x2x256x256_S64x2x4x256x256 := by
  dsimp only [Gen.V, Gen.hostOps0]
  after_results
  rfl

/-! ## The blocks' places -/

/-- The printed index maps, decided over the 32 grid points: windows 0 and 2 move along the batch axis with the point,
    window 1 stays. -/
theorem idx_facts : ∀ t : Fin cfg0.N,
    win0_0.index t (0 : Fin 5) = t.val ∧ win0_0.index t (1 : Fin 5) = 0 ∧ win0_0.index t (2 : Fin 5) = 0
    ∧ win0_0.index t (3 : Fin 5) = 0 ∧ win0_0.index t (4 : Fin 5) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- Every pair of batch entries is some point's. -/
theorem idx_onto : ∀ q : Fin 32, ∃ t : Fin cfg0.N, win0_2.index t = ![q.val, 0, 0, 0] :=
  (by decide +kernel : ∀ q : Fin 32, ∃ t : Fin grid0.N, win0_2.index t = ![q.val, 0, 0, 0])

/-- A block of the re-laid input and the offsets give, through the per-block function, the block of the whole result. -/
theorem Gblk_eq_G (xs : S64x2x512x512.Idx → EReal) (W : S1x4.Idx → EReal) (x0 : S2x2x4x256x256.Idx → EReal)
    (x1 : S1x4.Idx → EReal) (tt : Nat)
    (hx0 : ∀ (e : Fin 2) (ch : Fin 2) (p : Fin 4) (i j : Fin 256) (b : Fin 64), b.val = tt * 2 + e.val →
      x0 (ix5 e ch p i j) = xs (ix4 b ch (prow i p) (pcol j p)))
    (hx1 : ∀ p : Fin 4, x1 (ix2 (0 : Fin 1) p) = W (ix2 (0 : Fin 1) p))
    (y : S2x4x256x256.Idx) (o : S64x4x256x256.Idx) (h0 : (o 0).val = tt * 2 + (y 0).val) (h1 : (o 1).val = (y 1).val)
    (h2 : (o 2).val = (y 2).val) (h3 : (o 3).val = (y 3).val) :
    Gblk x0 x1 y = G xs W o := by
  obtain ⟨e, q, i, j, rfl⟩ : ∃ (e : Fin 2) (q : Fin 4) (i j : Fin 256), y = ix4 e q i j := ⟨y 0, y 1, y 2, y 3, eq_ix4 y⟩
  obtain ⟨b, q', i', j', rfl⟩ : ∃ (b : Fin 64) (q' : Fin 4) (i' j' : Fin 256), o = ix4 b q' i' j' := ⟨o 0, o 1, o 2, o 3, eq_ix4 o⟩
  obtain rfl : q' = q := Fin.ext h1
  obtain rfl : i' = i := Fin.ext h2
  obtain rfl : j' = j := Fin.ext h3
  have hb : b.val = tt * 2 + e.val := h0
  rw [Gblk_apply, G_apply]
  have r0 : (fun p => x0 (ix5 e (0 : Fin 2) p i' j')) = fun p => xs (ix4 b (0 : Fin 2) (prow i' p) (pcol j' p)) :=
    funext fun p => hx0 e 0 p i' j' b hb
  have r1 : (fun p => x0 (ix5 e (1 : Fin 2) p i' j')) = fun p => xs (ix4 b (1 : Fin 2) (prow i' p) (pcol j' p)) :=
    funext fun p => hx0 e 1 p i' j' b hb
  have r2 : (fun p => x1 (ix2 (0 : Fin 1) p)) = fun p => W (ix2 (0 : Fin 1) p) := funext hx1
  rw [r0, r1, r2]

/-- WHAT POINT `t` WRITES BACK is block `t` of the whole result function of the argument arrays. -/
theorem flushed_eq (c : Dev nD) (t : Fin cfg0.N) :
    (dats m 0 c).flushed 2 t
      = ((cfg0.win 2).blk t).view.read (Elt Ideal) (G (m ((c : Thread nD τ).loc main_arg0)) (m ((c : Thread nD τ).loc main_arg1))) := by
  rw [Cert.KernelIdeal.Value.flushed2, Block.out_block]
  obtain ⟨a0, a1, a2, a3, a4, w0, w1, o0, o1, o2, o3⟩ := idx_facts t
  funext y
  show Gblk (iblk m c 0 t) (iblk m c 1 t) y
    = G (m ((c : Thread nD τ).loc main_arg0)) (m ((c : Thread nD τ).loc main_arg1)) (((cfg0.win 2).blk t).view.emb y)
  refine Gblk_eq_G _ _ _ _ t.val ?_ ?_ y _ ?_ ?_ ?_ ?_
  · intro e ch p i j b hb
    show V m c main_v2 (((cfg0.win 0).blk t).view.emb (ix5 e ch p i j)) = _
    rw [V_relaid, ← relaid_at (m ((c : Thread nD τ).loc main_arg0)) b ch p i j]
    refine congrArg _ (funext fun a => Fin.ext ?_)
    match a with
    | ⟨0, _⟩ => show win0_0.index t (0 : Fin 5) * 2 + 1 * e.val = b.val; omega
    | ⟨1, _⟩ => show win0_0.index t (1 : Fin 5) * 2 + 1 * ch.val = ch.val; omega
    | ⟨2, _⟩ => show win0_0.index t (2 : Fin 5) * 4 + 1 * p.val = p.val; omega
    | ⟨3, _⟩ => show win0_0.index t (3 : Fin 5) * 256 + 1 * i.val = i.val; omega
    | ⟨4, _⟩ => show win0_0.index t (4 : Fin 5) * 256 + 1 * j.val = j.val; omega
  · intro p
    show V m c main_arg1 (((cfg0.win 1).blk t).view.emb (ix2 (0 : Fin 1) p)) = _
    rw [V_main_arg1]
    refine congrArg _ (funext fun a => Fin.ext ?_)
    match a with
    | ⟨0, _⟩ => show win0_1.index t (0 : Fin 2) * 1 + 1 * 0 = 0; omega
    | ⟨1, _⟩ => show win0_1.index t (1 : Fin 2) * 4 + 1 * p.val = p.val; omega
  · show win0_2.index t (0 : Fin 4) * 2 + 1 * (y 0).val = t.val * 2 + (y 0).val; omega
  · show win0_2.index t (1 : Fin 4) * 4 + 1 * (y 1).val = (y 1).val; omega
  · show win0_2.index t (2 : Fin 4) * 256 + 1 * (y 2).val = (y 2).val; omega
  · show win0_2.index t (3 : Fin 4) * 256 + 1 * (y 3).val = (y 3).val; omega

/-- An index of the result is in point `t`'s block iff each coordinate is in the block's range on its axis. -/
theorem mem_blk (t : Fin cfg0.N) (o : S64x4x256x256.Idx) :
    o ∈ ((cfg0.win 2).blk t).view.set ↔ ∀ a : Fin 4, win0_2.index t a * S2x4x256x256.size a ≤ (o a).val
      ∧ (o a).val < win0_2.index t a * S2x4x256x256.size a + S2x4x256x256.size a := by
  show o ∈ ((View.whole main_v3).slice (win0_2.rect t)).set ↔ _
  rw [View.set_slice_whole, Rect.mem_set_unit]
  exact Iff.rfl

/-- The 32 blocks cover the result: entry `b` of the batch is in the block of point `b / 2`. -/
theorem cover (o : S64x4x256x256.Idx) : ∃ t : Fin cfg0.N, (cfg0.win 2).flush t = true ∧ o ∈ ((cfg0.win 2).blk t).view.set := by
  have h0 : (o 0).val < 64 := (o 0).isLt
  have h1 : (o 1).val < 4 := (o 1).isLt
  have h2 : (o 2).val < 256 := (o 2).isLt
  have h3 : (o 3).val < 256 := (o 3).isLt
  obtain ⟨t, ht⟩ := idx_onto ⟨(o 0).val / 2, by omega⟩
  have q0 : win0_2.index t (0 : Fin 4) = (o 0).val / 2 := congrFun ht 0
  have q1 : win0_2.index t (1 : Fin 4) = 0 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 2 ≤ (o 0).val ∧ (o 0).val < win0_2.index t (0 : Fin 4) * 2 + 2; omega
  | ⟨1, _⟩ => show win0_2.index t (1 : Fin 4) * 4 ≤ (o 1).val ∧ (o 1).val < win0_2.index t (1 : Fin 4) * 4 + 4; omega
  | ⟨2, _⟩ => show win0_2.index t (2 : Fin 4) * 256 ≤ (o 2).val ∧ (o 2).val < win0_2.index t (2 : Fin 4) * 256 + 256; omega
  | ⟨3, _⟩ => show win0_2.index t (3 : Fin 4) * 256 ≤ (o 3).val ∧ (o 3).val < win0_2.index t (3 : Fin 4) * 256 + 256; omega

/-- THE RESULT ARRAY after the run is the whole result function of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (m ((c : Thread nD τ).loc main_arg0)) (m ((c : Thread nD τ).loc main_arg1)))
    (fun t _ => flushed_eq m c t) cover

/-- THE KERNEL'S RUN: every weakly fair execution terminates with the result array at `G` of the argument arrays, the
    arguments unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Run

end Cert.Quanv.Kernel

end
-- ==== Proof.RefRun.lean ====
/-
  The reference program's run, read back in stages.

  The reference computes, from the image `x : [64, 2, 512, 512]` and the offsets `w : [1, 4]`:
    the modulus image            √(re·re + im·im) at every pixel                          [64, 512, 512]
    the patch members            the image cut into 2 × 2 patches, the four members last    [64, 256, 256, 4]
    the least and the greatest   of each patch's four members                               [64, 256, 256, 1]
    the cosines                  cos ((μ − least) / ((greatest − least) + ε) · π̃ + ω)       [64, 256, 256, 4]
    the four members' cosines    one array per member                                       [64, 256, 256]
    the products                 c1·c2·c3, c0·c1, c0·c1·c2, c0·c1·c2·c3, joined and moved
                                 to the second axis                                         [64, 4, 256, 256]
  Each stage is a definition here, in the operations the program prints, so that a value shared by several later
  operations is stated once. The program's 52 operations are cut into six consecutive stretches, one per stage; what
  a stretch leaves in the buffer it computes is the stage's definition of what was in the buffers it reads, and the
  whole run is the composition.
-/
import proofs.«167130_j40931038331593_2_alg».proof.Proof.Gen.ReferenceIdeal
import Idealize.ShloMosaic.Lib.StableHlo.Run
import Idealize.ShloMosaic.PureOps.Ideal

noncomputable section

namespace Cert.Quanv.Ref

open Cert.ReferenceIdeal Cert.ReferenceIdeal.Gen Idealize.ShloMosaic Idealize.ShloMosaic.TcCoe Idealize.SL.Sem Idealize.ShloMosaic.StableHlo

variable {F : FTy → Type} [FloatOps F]

/-- An f32 array of shape `S`: a float value at every index (an extended real at the ideal instance). -/
abbrev Arr (F : FTy → Type) (S : Shape) : Type := (⟨S, .f32⟩ : BufTy).Contents (Elt F)

/-! ## The stages -/

/-- The real parts: channel 0 of the image. -/
def rePlane (x : Arr F S64x2x512x512) : Arr F S64x512x512 :=
  shapeCast S64x512x512 (extractStridedSlice S64x1x512x512 ![0, 0, 0, 0] x slices_S64x2x512x512_S64x1x512x512_0_0_0_0)
    shapeCasts_S64x1x512x512_S64x512x512

/-- The imaginary parts: channel 1 of the image. -/
def imPlane (x : Arr F S64x2x512x512) : Arr F S64x512x512 :=
  shapeCast S64x512x512 (extractStridedSlice S64x1x512x512 ![0, 1, 0, 0] x slices_S64x2x512x512_S64x1x512x512_0_1_0_0)
    shapeCasts_S64x1x512x512_S64x512x512

/-- The modulus image: √(re·re + im·im) at every pixel. -/
def modulusImage (x : Arr F S64x2x512x512) : Arr F S64x512x512 :=
  Host.sqrt (addf (mulf (rePlane x) (rePlane x)) (mulf (imPlane x) (imPlane x)))

/-- The image cut into 2 × 2 patches: rows and columns each split in (patch, offset), the two offsets moved last and
    joined into one axis of four members. -/
def patchMembers (g : Arr F S64x512x512) : Arr F S64x256x256x4 :=
  shapeCast S64x256x256x4
    (transpose S64x256x256x2x2 [0, 1, 3, 2, 4] (shapeCast S64x256x2x256x2 g shapeCasts_S64x512x512_S64x256x2x256x2)
      transposes_S64x256x2x256x2_S64x256x256x2x2_0_1_3_2_4)
    shapeCasts_S64x256x256x2x2_S64x256x256x4

/-- Each patch's least member: the fold of the minimum over the member axis from +∞, kept as a unit axis. -/
def patchLeast (p : Arr F S64x256x256x4) : Arr F S64x256x256x1 :=
  broadcastInDim S64x256x256x1 ![0, 1, 2] bcast_S64x256x256_S64x256x256x1_0_1_2
    (Host.reduce (FloatOps.minimumf (F := F) (φ := .f32)) p (constant (F := F) S_ .f32 0x7F800000#32) reducesTo_S64x256x256x4_S64x256x256_d3 h_S_)

/-- Each patch's greatest member: the fold of the maximum over the member axis from −∞, kept as a unit axis. -/
def patchGreatest (p : Arr F S64x256x256x4) : Arr F S64x256x256x1 :=
  broadcastInDim S64x256x256x1 ![0, 1, 2] bcast_S64x256x256_S64x256x256x1_0_1_2
    (Host.reduce (FloatOps.maximumf (F := F) (φ := .f32)) p (constant (F := F) S_ .f32 0xFF800000#32) reducesTo_S64x256x256x4_S64x256x256_d3 h_S_)

/-- Each patch's regularised spread: (greatest − least) + ε. -/
def patchSpread (l h : Arr F S64x256x256x1) : Arr F S64x256x256x1 :=
  addf (subf h l) (broadcastInDim S64x256x256x1 ![] bcast_S_S64x256x256x1 (constant (F := F) S_ .f32 0x322BCC77#32))

/-- The four offsets, repeated over every patch. -/
def memberOffsets (w : Arr F S1x4) : Arr F S64x256x256x4 :=
  broadcastInDim S64x256x256x4 ![0, 1, 2, 3] bcast_S1x1x1x4_S64x256x256x4_0_1_2_3
    (broadcastInDim S1x1x1x4 ![3] bcast_S4_S1x1x1x4_3 (shapeCast S4 w shapeCasts_S1x4_S4))

/-- The cosine of every member's rotation angle: (μ − least) / spread · π̃ + ω. -/
def memberCosines (p : Arr F S64x256x256x4) (l h : Arr F S64x256x256x1) (w : Arr F S1x4) : Arr F S64x256x256x4 :=
  Host.cos (addf
    (mulf
      (Host.divf (subf p (broadcastInDim S64x256x256x4 ![0, 1, 2, 3] bcast_S64x256x256x1_S64x256x256x4_0_1_2_3 l))
        (broadcastInDim S64x256x256x4 ![0, 1, 2, 3] bcast_S64x256x256x1_S64x256x256x4_0_1_2_3 (patchSpread l h)))
      (broadcastInDim S64x256x256x4 ![] bcast_S_S64x256x256x4 (constant (F := F) S_ .f32 0x40490FDB#32)))
    (memberOffsets w))

/-- Member 0's cosines, one per patch. -/
def cosine0 (c : Arr F S64x256x256x4) : Arr F S64x256x256 :=
  shapeCast S64x256x256 (extractStridedSlice S64x256x256x1 ![0, 0, 0, 0] c slices_S64x256x256x4_S64x256x256x1_0_0_0_0)
    shapeCasts_S64x256x256x1_S64x256x256
/-- Member 1's cosines. -/
def cosine1 (c : Arr F S64x256x256x4) : Arr F S64x256x256 :=
  shapeCast S64x256x256 (extractStridedSlice S64x256x256x1 ![0, 0, 0, 1] c slices_S64x256x256x4_S64x256x256x1_0_0_0_1)
    shapeCasts_S64x256x256x1_S64x256x256
/-- Member 2's cosines. -/
def cosine2 (c : Arr F S64x256x256x4) : Arr F S64x256x256 :=
  shapeCast S64x256x256 (extractStridedSlice S64x256x256x1 ![0, 0, 0, 2] c slices_S64x256x256x4_S64x256x256x1_0_0_0_2)
    shapeCasts_S64x256x256x1_S64x256x256
/-- Member 3's cosines. -/
def cosine3 (c : Arr F S64x256x256x4) : Arr F S64x256x256 :=
  shapeCast S64x256x256 (extractStridedSlice S64x256x256x1 ![0, 0, 0, 3] c slices_S64x256x256x4_S64x256x256x1_0_0_0_3)
    shapeCasts_S64x256x256x1_S64x256x256

/-- An array over the patches given a unit last axis. -/
def unitLast (v : Arr F S64x256x256) : Arr F S64x256x256x1 :=
  broadcastInDim S64x256x256x1 ![0, 1, 2] bcast_S64x256x256_S64x256x256x1_0_1_2 v

/-- The four products of cosines — c1·c2·c3, c0·c1, c0·c1·c2, c0·c1·c2·c3, grouped from the left — joined along a last
    axis, which is then moved to second place. -/
def products (c0 c1 c2 c3 : Arr F S64x256x256) : Arr F S64x4x256x256 :=
  transpose S64x4x256x256 [0, 3, 1, 2]
    (concatenate S64x256x256x4 3
      [⟨S64x256x256x1, unitLast (mulf (mulf c1 c2) c3)⟩, ⟨S64x256x256x1, unitLast (mulf c0 c1)⟩,
       ⟨S64x256x256x1, unitLast (mulf (mulf c0 c1) c2)⟩, ⟨S64x256x256x1, unitLast (mulf (mulf (mulf c0 c1) c2) c3)⟩]
      concatenates_S64x256x256x1_S64x256x256x1_S64x256x256x1_S64x256x256x1_S64x256x256x4_d3)
    transposes_S64x256x256x4_S64x4x256x256_0_3_1_2

/-- The products of the four members' cosines, read off the array of all cosines. -/
def productsOf (c : Arr F S64x256x256x4) : Arr F S64x4x256x256 :=
  products (cosine0 c) (cosine1 c) (cosine2 c) (cosine3 c)

/-- From the patch members to the result. -/
def fromPatches (p : Arr F S64x256x256x4) (w : Arr F S1x4) : Arr F S64x4x256x256 :=
  productsOf (memberCosines p (patchLeast p) (patchGreatest p) w)

/-- The reference's result as a function of its two arguments. -/
def result (x : Arr F S64x2x512x512) (w : Arr F S1x4) : Arr F S64x4x256x256 :=
  fromPatches (patchMembers (modulusImage x)) w

/-! ## The program as a list of operations, and its six stretches -/

/-- Operations %0–%7: the modulus image. -/
abbrev opsModulus : List (HloOp τ sig (Elt F)) :=
  [
    unary main_arg0 main_v0 ((extractStridedSlice S64x1x512x512 ![0, 0, 0, 0] · slices_S64x2x512x512_S64x1x512x512_0_0_0_0) : (⟨S64x2x512x512, .f32⟩ : BufTy).Contents (Elt F) → (⟨S64x1x512x512, .f32⟩ : BufTy).Contents (Elt F)),
    reshape main_v0 main_v1 rfl shapeCasts_S64x1x512x512_S64x512x512,
    binary main_v1 main_v1 main_v2 (mulf : (⟨S64x512x512, .f32⟩ : BufTy).Contents (Elt F) → (⟨S64x512x512, .f32⟩ : BufTy).Contents (Elt F) → (⟨S64x512x512, .f32⟩ : BufTy).Contents (Elt F)),
    unary main_arg0 main_v3 ((extractStridedSlice S64x1x512x512 ![0, 1, 0, 0] · slices_S64x2x512x512_S64x1x512x512_0_1_0_0) : (⟨S64x2x512x512, .f32⟩ : BufTy).Contents (Elt F) → (⟨S64x1x512x512, .f32⟩ : BufTy).Contents (Elt F)),
    reshape main_v3 main_v4 rfl shapeCasts_S64x1x512x512_S64x512x512,
    binary main_v4 main_v4 main_v5 (mulf : (⟨S64x512x512, .f32⟩ : BufTy).Contents (Elt F) → (⟨S64x512x512, .f32⟩ : BufTy).Contents (Elt F) → (⟨S64x512x512, .f32⟩ : BufTy).Contents (Elt F)),
    binary main_v2 main_v5 main_v6 (addf : (⟨S64x512x512, .f32⟩ : BufTy).Contents (Elt F) → (⟨S64x512x512, .f32⟩ : BufTy).Contents (Elt F) → (⟨S64x512x512, .f32⟩ : BufTy).Contents (Elt F)),
    unary main_v6 main_v7 (Host.sqrt : (⟨S64x512x512, .f32⟩ : BufTy).Contents (Elt F) → (⟨S64x512x512, .f32⟩ : BufTy).Contents (Elt F)) ]

/-- Operations %8–%10: the patch members. -/
abbrev opsPatches : List (HloOp τ sig (Elt F)) :=
  [
    reshape main_v7 main_v8 rfl shapeCasts_S64x512x512_S64x256x2x256x2,
    unary main_v8 main_v9 ((transpose S64x256x256x2x2 [0, 1, 3, 2, 4] · transposes_S64x256x2x256x2_S64x256x256x2x2_0_1_3_2_4) : (⟨S64x256x2x256x2, .f32⟩ : BufTy).Contents (Elt F) → (⟨S64x256x256x2x2, .f32⟩ : BufTy).Contents (Elt F)),
    reshape main_v9 main_v10 rfl shapeCasts_S64x256x256x2x2_S64x256x256x4 ]

/-- Operations %cst–%14: each patch's least and greatest member. -/
abbrev opsExtremes : List (HloOp τ sig (Elt F)) :=
  [
    nullary main_cst (constant S_ .f32 0x7F800000#32),
    binary main_v10 main_cst main_v11 ((fun x v => Host.reduce FloatOps.minimumf x v reducesTo_S64x256x256x4_S64x256x256_d3 h_S_) : (⟨S64x256x256x4, .f32⟩ : BufTy).Contents (Elt F) → (⟨S_, .f32⟩ : BufTy).Contents (Elt F) → (⟨S64x256x256, .f32⟩ : BufTy).Contents (Elt F)),
    unary main_v11 main_v12 (broadcastInDim S64x256x256x1 ![0, 1, 2] bcast_S64x256x256_S64x256x256x1_0_1_2 : (⟨S64x256x256, .f32⟩ : BufTy).Contents (Elt F) → (⟨S64x256x256x1, .f32⟩ : BufTy).Contents (Elt F)),
    nullary main_cst_0 (constant S_ .f32 0xFF800000#32),
    binary main_v10 main_cst_0 main_v13 ((fun x v => Host.reduce FloatOps.maximumf x v reducesTo_S64x256x256x4_S64x256x256_d3 h_S_) : (⟨S64x256x256x4, .f32⟩ : BufTy).Contents (Elt F) → (⟨S_, .f32⟩ : BufTy).Contents (Elt F) → (⟨S64x256x256, .f32⟩ : BufTy).Contents (Elt F)),
    unary main_v13 main_v14 (broadcastInDim S64x256x256x1 ![0, 1, 2] bcast_S64x256x256_S64x256x256x1_0_1_2 : (⟨S64x256x256, .f32⟩ : BufTy).Contents (Elt F) → (⟨S64x256x256x1, .f32⟩ : BufTy).Contents (Elt F)) ]

/-- Operations %15–%28: the cosines. -/
abbrev opsCosines : List (HloOp τ sig (Elt F)) :=
  [
    unary main_v12 main_v15 (broadcastInDim S64x256x256x4 ![0, 1, 2, 3] bcast_S64x256x256x1_S64x256x256x4_0_1_2_3 : (⟨S64x256x256x1, .f32⟩ : BufTy).Contents (Elt F) → (⟨S64x256x256x4, .f32⟩ : BufTy).Contents (Elt F)),
    binary main_v10 main_v15 main_v16 (subf : (⟨S64x256x256x4, .f32⟩ : BufTy).Contents (Elt F) → (⟨S64x256x256x4, .f32⟩ : BufTy).Contents (Elt F) → (⟨S64x256x256x4, .f32⟩ : BufTy).Contents (Elt F)),
    binary main_v14 main_v12 main_v17 (subf : (⟨S64x256x256x1, .f32⟩ : BufTy).Contents (Elt F) → (⟨S64x256x256x1, .f32⟩ : BufTy).Contents (Elt F) → (⟨S64x256x256x1, .f32⟩ : BufTy).Contents (Elt F)),
    nullary main_cst_1 (constant S_ .f32 0x322BCC77#32),
    unary main_cst_1 main_v18 (broadcastInDim S64x256x256x1 ![] bcast_S_S64x256x256x1 : (⟨S_, .f32⟩ : BufTy).Contents (Elt F) → (⟨S64x256x256x1, .f32⟩ : BufTy).Contents (Elt F)),
    binary main_v17 main_v18 main_v19 (addf : (⟨S64x256x256x1, .f32⟩ : BufTy).Contents (Elt F) → (⟨S64x256x256x1, .f32⟩ : BufTy).Contents (Elt F) → (⟨S64x256x256x1, .f32⟩ : BufTy).Contents (Elt F)),
    unary main_v19 main_v20 (broadcastInDim S64x256x256x4 ![0, 1, 2, 3] bcast_S64x256x256x1_S64x256x256x4_0_1_2_3 : (⟨S64x256x256x1, .f32⟩ : BufTy).Contents (Elt F) → (⟨S64x256x256x4, .f32⟩ : BufTy).Contents (Elt F)),
    binary main_v16 main_v20 main_v21 (Host.divf : (⟨S64x256x256x4, .f32⟩ : BufTy).Contents (Elt F) → (⟨S64x256x256x4, .f32⟩ : BufTy).Contents (Elt F) → (⟨S64x256x256x4, .f32⟩ : BufTy).Contents (Elt F)),
    nullary main_cst_2 (constant S_ .f32 0x40490FDB#32),
    unary main_cst_2 main_v22 (broadcastInDim S64x256x256x4 ![] bcast_S_S64x256x256x4 : (⟨S_, .f32⟩ : BufTy).Contents (Elt F) → (⟨S64x256x256x4, .f32⟩ : BufTy).Contents (Elt F)),
    binary main_v21 main_v22 main_v23 (mulf : (⟨S64x256x256x4, .f32⟩ : BufTy).Contents (Elt F) → (⟨S64x256x256x4, .f32⟩ : BufTy).Contents (Elt F) → (⟨S64x256x256x4, .f32⟩ : BufTy).Contents (Elt F)),
    reshape main_arg1 main_v24 rfl shapeCasts_S1x4_S4,
    unary main_v24 main_v25 (broadcastInDim S1x1x1x4 ![3] bcast_S4_S1x1x1x4_3 : (⟨S4, .f32⟩ : BufTy).Contents (Elt F) → (⟨S1x1x1x4, .f32⟩ : BufTy).Contents (Elt F)),
    unary main_v25 main_v26 (broadcastInDim S64x256x256x4 ![0, 1, 2, 3] bcast_S1x1x1x4_S64x256x256x4_0_1_2_3 : (⟨S1x1x1x4, .f32⟩ : BufTy).Contents (Elt F) → (⟨S64x256x256x4, .f32⟩ : BufTy).Contents (Elt F)),
    binary main_v23 main_v26 main_v27 (addf : (⟨S64x256x256x4, .f32⟩ : BufTy).Contents (Elt F) → (⟨S64x256x256x4, .f32⟩ : BufTy).Contents (Elt F) → (⟨S64x256x256x4, .f32⟩ : BufTy).Contents (Elt F)),
    unary main_v27 main_v28 (Host.cos : (⟨S64x256x256x4, .f32⟩ : BufTy).Contents (Elt F) → (⟨S64x256x256x4, .f32⟩ : BufTy).Contents (Elt F)) ]

/-- Operations %29–%36: the four members' cosines, one array each. -/
abbrev opsMembers : List (HloOp τ sig (Elt F)) :=
  [
    unary main_v28 main_v29 ((extractStridedSlice S64x256x256x1 ![0, 0, 0, 0] · slices_S64x256x256x4_S64x256x256x1_0_0_0_0) : (⟨S64x256x256x4, .f32⟩ : BufTy).Contents (Elt F) → (⟨S64x256x256x1, .f32⟩ : BufTy).Contents (Elt F)),
    reshape main_v29 main_v30 rfl shapeCasts_S64x256x256x1_S64x256x256,
    unary main_v28 main_v31 ((extractStridedSlice S64x256x256x1 ![0, 0, 0, 1] · slices_S64x256x256x4_S64x256x256x1_0_0_0_1) : (⟨S64x256x256x4, .f32⟩ : BufTy).Contents (Elt F) → (⟨S64x256x256x1, .f32⟩ : BufTy).Contents (Elt F)),
    reshape main_v31 main_v32 rfl shapeCasts_S64x256x256x1_S64x256x256,
    unary main_v28 main_v33 ((extractStridedSlice S64x256x256x1 ![0, 0, 0, 2] · slices_S64x256x256x4_S64x256x256x1_0_0_0_2) : (⟨S64x256x256x4, .f32⟩ : BufTy).Contents (Elt F) → (⟨S64x256x256x1, .f32⟩ : BufTy).Contents (Elt F)),
    reshape main_v33 main_v34 rfl shapeCasts_S64x256x256x1_S64x256x256,
    unary main_v28 main_v35 ((extractStridedSlice S64x256x256x1 ![0, 0, 0, 3] · slices_S64x256x256x4_S64x256x256x1_0_0_0_3) : (⟨S64x256x256x4, .f32⟩ : BufTy).Contents (Elt F) → (⟨S64x256x256x1, .f32⟩ : BufTy).Contents (Elt F)),
    reshape main_v35 main_v36 rfl shapeCasts_S64x256x256x1_S64x256x256 ]

/-- Operations %37–%47: the products, joined and transposed. -/
abbrev opsProducts : List (HloOp τ sig (Elt F)) :=
  [
    binary main_v30 main_v32 main_v37 (mulf : (⟨S64x256x256, .f32⟩ : BufTy).Contents (Elt F) → (⟨S64x256x256, .f32⟩ : BufTy).Contents (Elt F) → (⟨S64x256x256, .f32⟩ : BufTy).Contents (Elt F)),
    binary main_v37 main_v34 main_v38 (mulf : (⟨S64x256x256, .f32⟩ : BufTy).Contents (Elt F) → (⟨S64x256x256, .f32⟩ : BufTy).Contents (Elt F) → (⟨S64x256x256, .f32⟩ : BufTy).Contents (Elt F)),
    binary main_v32 main_v34 main_v39 (mulf : (⟨S64x256x256, .f32⟩ : BufTy).Contents (Elt F) → (⟨S64x256x256, .f32⟩ : BufTy).Contents (Elt F) → (⟨S64x256x256, .f32⟩ : BufTy).Contents (Elt F)),
    binary main_v39 main_v36 main_v40 (mulf : (⟨S64x256x256, .f32⟩ : BufTy).Contents (Elt F) → (⟨S64x256x256, .f32⟩ : BufTy).Contents (Elt F) → (⟨S64x256x256, .f32⟩ : BufTy).Contents (Elt F)),
    binary main_v38 main_v36 main_v41 (mulf : (⟨S64x256x256, .f32⟩ : BufTy).Contents (Elt F) → (⟨S64x256x256, .f32⟩ : BufTy).Contents (Elt F) → (⟨S64x256x256, .f32⟩ : BufTy).Contents (Elt F)),
    unary main_v40 main_v42 (broadcastInDim S64x256x256x1 ![0, 1, 2] bcast_S64x256x256_S64x256x256x1_0_1_2 : (⟨S64x256x256, .f32⟩ : BufTy).Contents (Elt F) → (⟨S64x256x256x1, .f32⟩ : BufTy).Contents (Elt F)),
    unary main_v37 main_v43 (broadcastInDim S64x256x256x1 ![0, 1, 2] bcast_S64x256x256_S64x256x256x1_0_1_2 : (⟨S64x256x256, .f32⟩ : BufTy).Contents (Elt F) → (⟨S64x256x256x1, .f32⟩ : BufTy).Contents (Elt F)),
    unary main_v38 main_v44 (broadcastInDim S64x256x256x1 ![0, 1, 2] bcast_S64x256x256_S64x256x256x1_0_1_2 : (⟨S64x256x256, .f32⟩ : BufTy).Contents (Elt F) → (⟨S64x256x256x1, .f32⟩ : BufTy).Contents (Elt F)),
    unary main_v41 main_v45 (broadcastInDim S64x256x256x1 ![0, 1, 2] bcast_S64x256x256_S64x256x256x1_0_1_2 : (⟨S64x256x256, .f32⟩ : BufTy).Contents (Elt F) → (⟨S64x256x256x1, .f32⟩ : BufTy).Contents (Elt F)),
    nary ![main_v42, main_v43, main_v44, main_v45] main_v46 (fun u => concatenate S64x256x256x4 3 [⟨S64x256x256x1, u 0⟩, ⟨S64x256x256x1, u 1⟩, ⟨S64x256x256x1, u 2⟩, ⟨S64x256x256x1, u 3⟩] concatenates_S64x256x256x1_S64x256x256x1_S64x256x256x1_S64x256x256x1_S64x256x256x4_d3),
    unary main_v46 main_v47 ((transpose S64x4x256x256 [0, 3, 1, 2] · transposes_S64x256x256x4_S64x4x256x256_0_3_1_2) : (⟨S64x256x256x4, .f32⟩ : BufTy).Contents (Elt F) → (⟨S64x4x256x256, .f32⟩ : BufTy).Contents (Elt F)) ]

/-- @main's 52 operations, in order. -/
abbrev ops : List (HloOp τ sig (Elt F)) :=
  [
    unary main_arg0 main_v0 ((extractStridedSlice S64x1x512x512 ![0, 0, 0, 0] · slices_S64x2x512x512_S64x1x512x512_0_0_0_0) : (⟨S64x2x512x512, .f32⟩ : BufTy).Contents (Elt F) → (⟨S64x1x512x512, .f32⟩ : BufTy).Contents (Elt F)),
    reshape main_v0 main_v1 rfl shapeCasts_S64x1x512x512_S64x512x512,
    binary main_v1 main_v1 main_v2 (mulf : (⟨S64x512x512, .f32⟩ : BufTy).Contents (Elt F) → (⟨S64x512x512, .f32⟩ : BufTy).Contents (Elt F) → (⟨S64x512x512, .f32⟩ : BufTy).Contents (Elt F)),
    unary main_arg0 main_v3 ((extractStridedSlice S64x1x512x512 ![0, 1, 0, 0] · slices_S64x2x512x512_S64x1x512x512_0_1_0_0) : (⟨S64x2x512x512, .f32⟩ : BufTy).Contents (Elt F) → (⟨S64x1x512x512, .f32⟩ : BufTy).Contents (Elt F)),
    reshape main_v3 main_v4 rfl shapeCasts_S64x1x512x512_S64x512x512,
    binary main_v4 main_v4 main_v5 (mulf : (⟨S64x512x512, .f32⟩ : BufTy).Contents (Elt F) → (⟨S64x512x512, .f32⟩ : BufTy).Contents (Elt F) → (⟨S64x512x512, .f32⟩ : BufTy).Contents (Elt F)),
    binary main_v2 main_v5 main_v6 (addf : (⟨S64x512x512, .f32⟩ : BufTy).Contents (Elt F) → (⟨S64x512x512, .f32⟩ : BufTy).Contents (Elt F) → (⟨S64x512x512, .f32⟩ : BufTy).Contents (Elt F)),
    unary main_v6 main_v7 (Host.sqrt : (⟨S64x512x512, .f32⟩ : BufTy).Contents (Elt F) → (⟨S64x512x512, .f32⟩ : BufTy).Contents (Elt F)),
    reshape main_v7 main_v8 rfl shapeCasts_S64x512x512_S64x256x2x256x2,
    unary main_v8 main_v9 ((transpose S64x256x256x2x2 [0, 1, 3, 2, 4] · transposes_S64x256x2x256x2_S64x256x256x2x2_0_1_3_2_4) : (⟨S64x256x2x256x2, .f32⟩ : BufTy).Contents (Elt F) → (⟨S64x256x256x2x2, .f32⟩ : BufTy).Contents (Elt F)),
    reshape main_v9 main_v10 rfl shapeCasts_S64x256x256x2x2_S64x256x256x4,
    nullary main_cst (constant S_ .f32 0x7F800000#32),
    binary main_v10 main_cst main_v11 ((fun x v => Host.reduce FloatOps.minimumf x v reducesTo_S64x256x256x4_S64x256x256_d3 h_S_) : (⟨S64x256x256x4, .f32⟩ : BufTy).Contents (Elt F) → (⟨S_, .f32⟩ : BufTy).Contents (Elt F) → (⟨S64x256x256, .f32⟩ : BufTy).Contents (Elt F)),
    unary main_v11 main_v12 (broadcastInDim S64x256x256x1 ![0, 1, 2] bcast_S64x256x256_S64x256x256x1_0_1_2 : (⟨S64x256x256, .f32⟩ : BufTy).Contents (Elt F) → (⟨S64x256x256x1, .f32⟩ : BufTy).Contents (Elt F)),
    nullary main_cst_0 (constant S_ .f32 0xFF800000#32),
    binary main_v10 main_cst_0 main_v13 ((fun x v => Host.reduce FloatOps.maximumf x v reducesTo_S64x256x256x4_S64x256x256_d3 h_S_) : (⟨S64x256x256x4, .f32⟩ : BufTy).Contents (Elt F) → (⟨S_, .f32⟩ : BufTy).Contents (Elt F) → (⟨S64x256x256, .f32⟩ : BufTy).Contents (Elt F)),
    unary main_v13 main_v14 (broadcastInDim S64x256x256x1 ![0, 1, 2] bcast_S64x256x256_S64x256x256x1_0_1_2 : (⟨S64x256x256, .f32⟩ : BufTy).Contents (Elt F) → (⟨S64x256x256x1, .f32⟩ : BufTy).Contents (Elt F)),
    unary main_v12 main_v15 (broadcastInDim S64x256x256x4 ![0, 1, 2, 3] bcast_S64x256x256x1_S64x256x256x4_0_1_2_3 : (⟨S64x256x256x1, .f32⟩ : BufTy).Contents (Elt F) → (⟨S64x256x256x4, .f32⟩ : BufTy).Contents (Elt F)),
    binary main_v10 main_v15 main_v16 (subf : (⟨S64x256x256x4, .f32⟩ : BufTy).Contents (Elt F) → (⟨S64x256x256x4, .f32⟩ : BufTy).Contents (Elt F) → (⟨S64x256x256x4, .f32⟩ : BufTy).Contents (Elt F)),
    binary main_v14 main_v12 main_v17 (subf : (⟨S64x256x256x1, .f32⟩ : BufTy).Contents (Elt F) → (⟨S64x256x256x1, .f32⟩ : BufTy).Contents (Elt F) → (⟨S64x256x256x1, .f32⟩ : BufTy).Contents (Elt F)),
    nullary main_cst_1 (constant S_ .f32 0x322BCC77#32),
    unary main_cst_1 main_v18 (broadcastInDim S64x256x256x1 ![] bcast_S_S64x256x256x1 : (⟨S_, .f32⟩ : BufTy).Contents (Elt F) → (⟨S64x256x256x1, .f32⟩ : BufTy).Contents (Elt F)),
    binary main_v17 main_v18 main_v19 (addf : (⟨S64x256x256x1, .f32⟩ : BufTy).Contents (Elt F) → (⟨S64x256x256x1, .f32⟩ : BufTy).Contents (Elt F) → (⟨S64x256x256x1, .f32⟩ : BufTy).Contents (Elt F)),
    unary main_v19 main_v20 (broadcastInDim S64x256x256x4 ![0, 1, 2, 3] bcast_S64x256x256x1_S64x256x256x4_0_1_2_3 : (⟨S64x256x256x1, .f32⟩ : BufTy).Contents (Elt F) → (⟨S64x256x256x4, .f32⟩ : BufTy).Contents (Elt F)),
    binary main_v16 main_v20 main_v21 (Host.divf : (⟨S64x256x256x4, .f32⟩ : BufTy).Contents (Elt F) → (⟨S64x256x256x4, .f32⟩ : BufTy).Contents (Elt F) → (⟨S64x256x256x4, .f32⟩ : BufTy).Contents (Elt F)),
    nullary main_cst_2 (constant S_ .f32 0x40490FDB#32),
    unary main_cst_2 main_v22 (broadcastInDim S64x256x256x4 ![] bcast_S_S64x256x256x4 : (⟨S_, .f32⟩ : BufTy).Contents (Elt F) → (⟨S64x256x256x4, .f32⟩ : BufTy).Contents (Elt F)),
    binary main_v21 main_v22 main_v23 (mulf : (⟨S64x256x256x4, .f32⟩ : BufTy).Contents (Elt F) → (⟨S64x256x256x4, .f32⟩ : BufTy).Contents (Elt F) → (⟨S64x256x256x4, .f32⟩ : BufTy).Contents (Elt F)),
    reshape main_arg1 main_v24 rfl shapeCasts_S1x4_S4,
    unary main_v24 main_v25 (broadcastInDim S1x1x1x4 ![3] bcast_S4_S1x1x1x4_3 : (⟨S4, .f32⟩ : BufTy).Contents (Elt F) → (⟨S1x1x1x4, .f32⟩ : BufTy).Contents (Elt F)),
    unary main_v25 main_v26 (broadcastInDim S64x256x256x4 ![0, 1, 2, 3] bcast_S1x1x1x4_S64x256x256x4_0_1_2_3 : (⟨S1x1x1x4, .f32⟩ : BufTy).Contents (Elt F) → (⟨S64x256x256x4, .f32⟩ : BufTy).Contents (Elt F)),
    binary main_v23 main_v26 main_v27 (addf : (⟨S64x256x256x4, .f32⟩ : BufTy).Contents (Elt F) → (⟨S64x256x256x4, .f32⟩ : BufTy).Contents (Elt F) → (⟨S64x256x256x4, .f32⟩ : BufTy).Contents (Elt F)),
    unary main_v27 main_v28 (Host.cos : (⟨S64x256x256x4, .f32⟩ : BufTy).Contents (Elt F) → (⟨S64x256x256x4, .f32⟩ : BufTy).Contents (Elt F)),
    unary main_v28 main_v29 ((extractStridedSlice S64x256x256x1 ![0, 0, 0, 0] · slices_S64x256x256x4_S64x256x256x1_0_0_0_0) : (⟨S64x256x256x4, .f32⟩ : BufTy).Contents (Elt F) → (⟨S64x256x256x1, .f32⟩ : BufTy).Contents (Elt F)),
    reshape main_v29 main_v30 rfl shapeCasts_S64x256x256x1_S64x256x256,
    unary main_v28 main_v31 ((extractStridedSlice S64x256x256x1 ![0, 0, 0, 1] · slices_S64x256x256x4_S64x256x256x1_0_0_0_1) : (⟨S64x256x256x4, .f32⟩ : BufTy).Contents (Elt F) → (⟨S64x256x256x1, .f32⟩ : BufTy).Contents (Elt F)),
    reshape main_v31 main_v32 rfl shapeCasts_S64x256x256x1_S64x256x256,
    unary main_v28 main_v33 ((extractStridedSlice S64x256x256x1 ![0, 0, 0, 2] · slices_S64x256x256x4_S64x256x256x1_0_0_0_2) : (⟨S64x256x256x4, .f32⟩ : BufTy).Contents (Elt F) → (⟨S64x256x256x1, .f32⟩ : BufTy).Contents (Elt F)),
    reshape main_v33 main_v34 rfl shapeCasts_S64x256x256x1_S64x256x256,
    unary main_v28 main_v35 ((extractStridedSlice S64x256x256x1 ![0, 0, 0, 3] · slices_S64x256x256x4_S64x256x256x1_0_0_0_3) : (⟨S64x256x256x4, .f32⟩ : BufTy).Contents (Elt F) → (⟨S64x256x256x1, .f32⟩ : BufTy).Contents (Elt F)),
    reshape main_v35 main_v36 rfl shapeCasts_S64x256x256x1_S64x256x256,
    binary main_v30 main_v32 main_v37 (mulf : (⟨S64x256x256, .f32⟩ : BufTy).Contents (Elt F) → (⟨S64x256x256, .f32⟩ : BufTy).Contents (Elt F) → (⟨S64x256x256, .f32⟩ : BufTy).Contents (Elt F)),
    binary main_v37 main_v34 main_v38 (mulf : (⟨S64x256x256, .f32⟩ : BufTy).Contents (Elt F) → (⟨S64x256x256, .f32⟩ : BufTy).Contents (Elt F) → (⟨S64x256x256, .f32⟩ : BufTy).Contents (Elt F)),
    binary main_v32 main_v34 main_v39 (mulf : (⟨S64x256x256, .f32⟩ : BufTy).Contents (Elt F) → (⟨S64x256x256, .f32⟩ : BufTy).Contents (Elt F) → (⟨S64x256x256, .f32⟩ : BufTy).Contents (Elt F)),
    binary main_v39 main_v36 main_v40 (mulf : (⟨S64x256x256, .f32⟩ : BufTy).Contents (Elt F) → (⟨S64x256x256, .f32⟩ : BufTy).Contents (Elt F) → (⟨S64x256x256, .f32⟩ : BufTy).Contents (Elt F)),
    binary main_v38 main_v36 main_v41 (mulf : (⟨S64x256x256, .f32⟩ : BufTy).Contents (Elt F) → (⟨S64x256x256, .f32⟩ : BufTy).Contents (Elt F) → (⟨S64x256x256, .f32⟩ : BufTy).Contents (Elt F)),
    unary main_v40 main_v42 (broadcastInDim S64x256x256x1 ![0, 1, 2] bcast_S64x256x256_S64x256x256x1_0_1_2 : (⟨S64x256x256, .f32⟩ : BufTy).Contents (Elt F) → (⟨S64x256x256x1, .f32⟩ : BufTy).Contents (Elt F)),
    unary main_v37 main_v43 (broadcastInDim S64x256x256x1 ![0, 1, 2] bcast_S64x256x256_S64x256x256x1_0_1_2 : (⟨S64x256x256, .f32⟩ : BufTy).Contents (Elt F) → (⟨S64x256x256x1, .f32⟩ : BufTy).Contents (Elt F)),
    unary main_v38 main_v44 (broadcastInDim S64x256x256x1 ![0, 1, 2] bcast_S64x256x256_S64x256x256x1_0_1_2 : (⟨S64x256x256, .f32⟩ : BufTy).Contents (Elt F) → (⟨S64x256x256x1, .f32⟩ : BufTy).Contents (Elt F)),
    unary main_v41 main_v45 (broadcastInDim S64x256x256x1 ![0, 1, 2] bcast_S64x256x256_S64x256x256x1_0_1_2 : (⟨S64x256x256, .f32⟩ : BufTy).Contents (Elt F) → (⟨S64x256x256x1, .f32⟩ : BufTy).Contents (Elt F)),
    nary ![main_v42, main_v43, main_v44, main_v45] main_v46 (fun u => concatenate S64x256x256x4 3 [⟨S64x256x256x1, u 0⟩, ⟨S64x256x256x1, u 1⟩, ⟨S64x256x256x1, u 2⟩, ⟨S64x256x256x1, u 3⟩] concatenates_S64x256x256x1_S64x256x256x1_S64x256x256x1_S64x256x256x1_S64x256x256x4_d3),
    unary main_v46 main_v47 ((transpose S64x4x256x256 [0, 3, 1, 2] · transposes_S64x256x256x4_S64x4x256x256_0_3_1_2) : (⟨S64x256x256x4, .f32⟩ : BufTy).Contents (Elt F) → (⟨S64x4x256x256, .f32⟩ : BufTy).Contents (Elt F)) ]

/-- The list is its six stretches, in order. -/
theorem ops_split : (ops : List (HloOp τ sig (Elt F))) = opsModulus ++ (opsPatches ++ (opsExtremes ++ (opsCosines ++ (opsMembers ++ opsProducts)))) := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., unary_bufs_sub .., reshape_bufs_sub .., unary_bufs_sub .., reshape_bufs_sub .., nullary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., reshape_bufs_sub .., unary_bufs_sub .., unary_bufs_sub .., binary_bufs_sub .., unary_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., unary_bufs_sub .., unary_bufs_sub .., unary_bufs_sub .., unary_bufs_sub .., nary_bufs_sub .., unary_bufs_sub ..⟩

/-- Two stretches run one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## What each stretch leaves, from any contents `V` -/

section Stretches
variable (V : Valuation τ sig (Elt F))

theorem modulus_v7 : after opsModulus V (Proc.devRef .tc main_v7) = modulusImage (V (Proc.devRef .tc main_arg0)) := by
  after_results_simp <;> rfl
theorem modulus_arg0 : after opsModulus V (Proc.devRef .tc main_arg0) = V (Proc.devRef .tc main_arg0) := by after_results_simp <;> rfl
theorem modulus_arg1 : after opsModulus V (Proc.devRef .tc main_arg1) = V (Proc.devRef .tc main_arg1) := by after_results_simp <;> rfl

theorem patches_v10 : after opsPatches V (Proc.devRef .tc main_v10) = patchMembers (V (Proc.devRef .tc main_v7)) := by
  after_results_simp <;> rfl
theorem patches_arg0 : after opsPatches V (Proc.devRef .tc main_arg0) = V (Proc.devRef .tc main_arg0) := by after_results_simp <;> rfl
theorem patches_arg1 : after opsPatches V (Proc.devRef .tc main_arg1) = V (Proc.devRef .tc main_arg1) := by after_results_simp <;> rfl

theorem extremes_v12 : after opsExtremes V (Proc.devRef .tc main_v12) = patchLeast (V (Proc.devRef .tc main_v10)) := by
  after_results_simp <;> rfl
theorem extremes_v14 : after opsExtremes V (Proc.devRef .tc main_v14) = patchGreatest (V (Proc.devRef .tc main_v10)) := by
  after_results_simp <;> rfl
theorem extremes_v10 : after opsExtremes V (Proc.devRef .tc main_v10) = V (Proc.devRef .tc main_v10) := by after_results_simp <;> rfl
theorem extremes_arg0 : after opsExtremes V (Proc.devRef .tc main_arg0) = V (Proc.devRef .tc main_arg0) := by after_results_simp <;> rfl
theorem extremes_arg1 : after opsExtremes V (Proc.devRef .tc main_arg1) = V (Proc.devRef .tc main_arg1) := by after_results_simp <;> rfl

theorem cosines_v28 : after opsCosines V (Proc.devRef .tc main_v28)
    = memberCosines (V (Proc.devRef .tc main_v10)) (V (Proc.devRef .tc main_v12)) (V (Proc.devRef .tc main_v14)) (V (Proc.devRef .tc main_arg1)) := by
  after_results_simp <;> rfl
theorem cosines_arg0 : after opsCosines V (Proc.devRef .tc main_arg0) = V (Proc.devRef .tc main_arg0) := by after_results_simp <;> rfl
theorem cosines_arg1 : after opsCosines V (Proc.devRef .tc main_arg1) = V (Proc.devRef .tc main_arg1) := by after_results_simp <;> rfl

theorem members_v30 : after opsMembers V (Proc.devRef .tc main_v30) = cosine0 (V (Proc.devRef .tc main_v28)) := by after_results_simp <;> rfl
theorem members_v32 : after opsMembers V (Proc.devRef .tc main_v32) = cosine1 (V (Proc.devRef .tc main_v28)) := by after_results_simp <;> rfl
theorem members_v34 : after opsMembers V (Proc.devRef .tc main_v34) = cosine2 (V (Proc.devRef .tc main_v28)) := by after_results_simp <;> rfl
theorem members_v36 : after opsMembers V (Proc.devRef .tc main_v36) = cosine3 (V (Proc.devRef .tc main_v28)) := by after_results_simp <;> rfl
theorem members_arg0 : after opsMembers V (Proc.devRef .tc main_arg0) = V (Proc.devRef .tc main_arg0) := by after_results_simp <;> rfl
theorem members_arg1 : after opsMembers V (Proc.devRef .tc main_arg1) = V (Proc.devRef .tc main_arg1) := by after_results_simp <;> rfl

theorem products_v47 : after opsProducts V (Proc.devRef .tc main_v47)
    = products (V (Proc.devRef .tc main_v30)) (V (Proc.devRef .tc main_v32)) (V (Proc.devRef .tc main_v34)) (V (Proc.devRef .tc main_v36)) := by
  after_results_simp <;> rfl
theorem products_arg0 : after opsProducts V (Proc.devRef .tc main_arg0) = V (Proc.devRef .tc main_arg0) := by after_results_simp <;> rfl
theorem products_arg1 : after opsProducts V (Proc.devRef .tc main_arg1) = V (Proc.devRef .tc main_arg1) := by after_results_simp <;> rfl

/-! ## The whole line -/

/-- After the 52 operations the result buffer holds `result` of the two arguments' contents. -/
theorem ops_v47 : after ops V (Proc.devRef .tc main_v47) = result (V (Proc.devRef .tc main_arg0)) (V (Proc.devRef .tc main_arg1)) := by
  rw [ops_split, after_two, after_two, after_two, after_two, after_two, products_v47,
    members_v30, members_v32, members_v34, members_v36, cosines_v28, extremes_v10, extremes_v12, extremes_v14, extremes_arg1,
    patches_v10, patches_arg1, modulus_v7, modulus_arg1]
  rfl

/-- The first argument is left as it was. -/
theorem ops_arg0 : after ops V (Proc.devRef .tc main_arg0) = V (Proc.devRef .tc main_arg0) := by
  rw [ops_split, after_two, after_two, after_two, after_two, after_two, products_arg0, members_arg0, cosines_arg0,
    extremes_arg0, patches_arg0, modulus_arg0]

/-- The second argument is left as it was. -/
theorem ops_arg1 : after ops V (Proc.devRef .tc main_arg1) = V (Proc.devRef .tc main_arg1) := by
  rw [ops_split, after_two, after_two, after_two, after_two, after_two, products_arg1, members_arg1, cosines_arg1,
    extremes_arg1, patches_arg1, modulus_arg1]

end Stretches

/-- On every device, from any memory with zero counters: every weakly fair execution of @main terminates with the result
    buffer at `result` of the arguments' launch contents, and the arguments unchanged. -/
theorem run_result (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v47)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v47).trans (ops_v47 _), (h c main_arg0).trans (ops_arg0 _),
      (h c main_arg1).trans (ops_arg1 _)⟩)
    (run_seq scopedRefs_eq scopedSems_eq defs main (fun _ => ops) main_eq (fun _ => ops_sub) m ρ)

end Cert.Quanv.Ref

end
-- ==== Proof.RefValue.lean ====
/-
  The reference's stages read at explicit coordinates, and the result identified with the specification `G`.

  Every array here is indexed by coordinates built with `ix2 … ix5`. A layout operation (slice, reshape, transpose,
  broadcast, concatenation) read at such an index is its operand at an index whose coordinates are linear in the given
  ones; a reshape's two indices share their row-major position. A patch's least member is the fold of the minimum over
  its four members from +∞, which is the pairing `min (min μ0 μ1) (min μ2 μ3)` of the specification, and likewise the
  greatest from −∞.
-/
import proofs.«167130_j40931038331593_2_alg».proof.Proof.Spec
import proofs.«167130_j40931038331593_2_alg».proof.Proof.RefRun
import Idealize.ShloMosaic.Lib.Pipeline.Value
import Idealize.ShloMosaic.Lib.ValueIdx
import Idealize.ShloMosaic.PureOps.Reduce
import Idealize.ShloMosaic.PureOps.Ideal.Laws

noncomputable section

namespace Cert.Quanv.Ref

open Cert.ReferenceIdeal Cert.ReferenceIdeal.Gen Idealize.ShloMosaic Idealize.ShloMosaic.ValueIdx Idealize.SL.Sem

/-! ## The modulus image -/

/-- The real part at pixel (r, c) of batch entry b is the image's channel 0 there. -/
theorem rePlane_apply (x : Arr Ideal S64x2x512x512) (b : Fin 64) (r c : Fin 512) :
    rePlane x (ix3 b r c) = x (ix4 b (0 : Fin 2) r c) := by
  unfold rePlane
  refine (shapeCast_apply _ shapeCasts_S64x1x512x512_S64x512x512 (ix3 b r c) (ix4 b (0 : Fin 1) r c) ?_).trans
    (extractStridedSlice_apply ![0, 0, 0, 0] x slices_S64x2x512x512_S64x1x512x512_0_0_0_0 (ix4 b (0 : Fin 1) r c)
      (ix4 b (0 : Fin 2) r c) ?_)
  · rw [Shape.rowMajor_val_four, Shape.rowMajor_val_three]
    show ((b.val * 1 + 0) * 512 + r.val) * 512 + c.val = (b.val * 512 + r.val) * 512 + c.val
    omega
  · intro a
    match a with
    | ⟨0, _⟩ => show b.val = 0 + b.val; omega
    | ⟨1, _⟩ => show (0 : Nat) = 0 + 0; rfl
    | ⟨2, _⟩ => show r.val = 0 + r.val; omega
    | ⟨3, _⟩ => show c.val = 0 + c.val; omega

/-- The imaginary part at pixel (r, c) of batch entry b is the image's channel 1 there. -/
theorem imPlane_apply (x : Arr Ideal S64x2x512x512) (b : Fin 64) (r c : Fin 512) :
    imPlane x (ix3 b r c) = x (ix4 b (1 : Fin 2) r c) := by
  unfold imPlane
  refine (shapeCast_apply _ shapeCasts_S64x1x512x512_S64x512x512 (ix3 b r c) (ix4 b (0 : Fin 1) r c) ?_).trans
    (extractStridedSlice_apply ![0, 1, 0, 0] x slices_S64x2x512x512_S64x1x512x512_0_1_0_0 (ix4 b (0 : Fin 1) r c)
      (ix4 b (1 : Fin 2) r c) ?_)
  · rw [Shape.rowMajor_val_four, Shape.rowMajor_val_three]
    show ((b.val * 1 + 0) * 512 + r.val) * 512 + c.val = (b.val * 512 + r.val) * 512 + c.val
    omega
  · intro a
    match a with
    | ⟨0, _⟩ => show b.val = 0 + b.val; omega
    | ⟨1, _⟩ => show (1 : Nat) = 1 + 0; rfl
    | ⟨2, _⟩ => show r.val = 0 + r.val; omega
    | ⟨3, _⟩ => show c.val = 0 + c.val; omega

/-- The modulus image at a pixel is the modulus of the pixel's two channels. -/
theorem modulusImage_apply (x : Arr Ideal S64x2x512x512) (b : Fin 64) (r c : Fin 512) :
    modulusImage x (ix3 b r c) = modulus (x (ix4 b (0 : Fin 2) r c)) (x (ix4 b (1 : Fin 2) r c)) := by
  show Ideal.sqrt (rePlane x (ix3 b r c) * rePlane x (ix3 b r c) + imPlane x (ix3 b r c) * imPlane x (ix3 b r c)) = _
  rw [rePlane_apply, imPlane_apply]
  rfl

/-! ## The patches -/

/-- Member p of patch (i, j) is the pixel in row 2i + p / 2 and column 2j + p % 2. -/
theorem patchMembers_apply (g : Arr Ideal S64x512x512) (b : Fin 64) (i j : Fin 256) (p : Fin 4) :
    patchMembers g (ix4 b i j p) = g (ix3 b (prow i p) (pcol j p)) := by
  unfold patchMembers
  have hp := p.isLt
  have hb := b.isLt
  have hi := i.isLt
  have hj := j.isLt
  refine (shapeCast_apply _ shapeCasts_S64x256x256x2x2_S64x256x256x4 (ix4 b i j p)
      (ix5 b i j (⟨p.val / 2, by omega⟩ : Fin 2) (⟨p.val % 2, by omega⟩ : Fin 2)) ?_).trans ?_
  · rw [Shape.rowMajor_val_five, Shape.rowMajor_val_four]
    show ((((b.val * 256 + i.val) * 256 + j.val) * 2 + p.val / 2) * 2 + p.val % 2)
      = ((b.val * 256 + i.val) * 256 + j.val) * 4 + p.val
    omega
  refine (transpose_apply [0, 1, 3, 2, 4] _ transposes_S64x256x2x256x2_S64x256x256x2x2_0_1_3_2_4
      (ix5 b i j (⟨p.val / 2, by omega⟩ : Fin 2) (⟨p.val % 2, by omega⟩ : Fin 2))
      (ix5 b i (⟨p.val / 2, by omega⟩ : Fin 2) j (⟨p.val % 2, by omega⟩ : Fin 2)) ?_).trans ?_
  · intro a
    match a with
    | ⟨0, _⟩ => rfl
    | ⟨1, _⟩ => rfl
    | ⟨2, _⟩ => rfl
    | ⟨3, _⟩ => rfl
    | ⟨4, _⟩ => rfl
  refine shapeCast_apply g shapeCasts_S64x512x512_S64x256x2x256x2
    (ix5 b i (⟨p.val / 2, by omega⟩ : Fin 2) j (⟨p.val % 2, by omega⟩ : Fin 2)) (ix3 b (prow i p) (pcol j p)) ?_
  rw [Shape.rowMajor_val_three, Shape.rowMajor_val_five]
  show (b.val * 512 + (2 * i.val + p.val / 2)) * 512 + (2 * j.val + p.val % 2)
    = (((b.val * 256 + i.val) * 2 + p.val / 2) * 256 + j.val) * 2 + p.val % 2
  omega

/-! ## A patch's least and greatest member -/

/-- The member axis is the one reduced. -/
theorem membersReduce : S64x256x256x4.Reduces [3] S64x256x256 := by decide

/-- Patch (b, i, j) with member k put back. -/
theorem lift_members (b : Fin 64) (i j : Fin 256) (k : Fin (S64x256x256x4.size 3)) :
    membersReduce.lift (ix3 b i j) k = ix4 b i j (⟨k.val, k.isLt⟩ : Fin 4) := by
  funext c; apply Fin.ext
  fin_cases c <;> rfl

/-- The fold of the minimum over four values from +∞ is their least. -/
theorem fold_min_four (g : Fin 4 → EReal) :
    (Finset.univ : Finset (Fin 4)).fold min (Ideal.ofBits .f32 0x7F800000#32 : EReal) g = least g := by
  simp only [Fin.univ_succ, Finset.fold_cons, Finset.fold_map, Finset.univ_unique, Finset.fold_singleton]
  show min (g 0) (min (g 1) (min (g 2) (min (g 3) (Ideal.ofBits .f32 0x7F800000#32)))) = min (min (g 0) (g 1)) (min (g 2) (g 3))
  have htop : (Ideal.ofBits .f32 0x7F800000#32 : EReal) = ⊤ := by simp [Ideal.ofBits, Ideal.ieee]
  rw [htop, min_top_right, min_assoc]

/-- The fold of the maximum over four values from −∞ is their greatest. -/
theorem fold_max_four (g : Fin 4 → EReal) :
    (Finset.univ : Finset (Fin 4)).fold max (Ideal.ofBits .f32 0xFF800000#32 : EReal) g = greatest g := by
  simp only [Fin.univ_succ, Finset.fold_cons, Finset.fold_map, Finset.univ_unique, Finset.fold_singleton]
  show max (g 0) (max (g 1) (max (g 2) (max (g 3) (Ideal.ofBits .f32 0xFF800000#32)))) = max (max (g 0) (g 1)) (max (g 2) (g 3))
  have hbot : (Ideal.ofBits .f32 0xFF800000#32 : EReal) = ⊥ := by simp [Ideal.ofBits, Ideal.ieee]
  rw [hbot, max_bot_right, max_assoc]

/-- An array over the patches with a unit last axis, read at a patch. -/
theorem unitLast_apply (v : Arr Ideal S64x256x256) (b : Fin 64) (i j : Fin 256) (u : Fin 1) :
    unitLast v (ix4 b i j u) = v (ix3 b i j) := by
  unfold unitLast
  exact broadcastInDim_apply _ bcast_S64x256x256_S64x256x256x1_0_1_2 v (ix4 b i j u) (ix3 b i j) (fun a => match a with
    | ⟨0, _⟩ => by show b.val = if (64 : Nat) = 1 then 0 else b.val; rw [if_neg (by decide)]
    | ⟨1, _⟩ => by show i.val = if (256 : Nat) = 1 then 0 else i.val; rw [if_neg (by decide)]
    | ⟨2, _⟩ => by show j.val = if (256 : Nat) = 1 then 0 else j.val; rw [if_neg (by decide)])

/-- A patch's least member, as the specification pairs it. -/
theorem patchLeast_apply (P : Arr Ideal S64x256x256x4) (b : Fin 64) (i j : Fin 256) (u : Fin 1) :
    patchLeast P (ix4 b i j u) = least (fun p => P (ix4 b i j p)) := by
  unfold patchLeast
  refine (broadcastInDim_apply _ bcast_S64x256x256_S64x256x256x1_0_1_2 _ (ix4 b i j u) (ix3 b i j) (fun a => match a with
    | ⟨0, _⟩ => by show b.val = if (64 : Nat) = 1 then 0 else b.val; rw [if_neg (by decide)]
    | ⟨1, _⟩ => by show i.val = if (256 : Nat) = 1 then 0 else i.val; rw [if_neg (by decide)]
    | ⟨2, _⟩ => by show j.val = if (256 : Nat) = 1 then 0 else j.val; rw [if_neg (by decide)])).trans ?_
  rw [Host.reduce_eq_fold_single (FloatOps.minimumf (F := Ideal) (φ := .f32)) P _ reducesTo_S64x256x256x4_S64x256x256_d3 membersReduce h_S_]
  refine Eq.trans ?_ (fold_min_four fun p => P (ix4 b i j p))
  have hf : (P ∘ membersReduce.lift (ix3 b i j)) = fun k : Fin 4 => P (ix4 b i j k) :=
    funext fun k => congrArg P (lift_members b i j k)
  exact congrArg (fun f => Finset.fold min (Ideal.ofBits .f32 0x7F800000#32 : EReal) f (Finset.univ : Finset (Fin 4))) hf

/-- A patch's greatest member, as the specification pairs it. -/
theorem patchGreatest_apply (P : Arr Ideal S64x256x256x4) (b : Fin 64) (i j : Fin 256) (u : Fin 1) :
    patchGreatest P (ix4 b i j u) = greatest (fun p => P (ix4 b i j p)) := by
  unfold patchGreatest
  refine (broadcastInDim_apply _ bcast_S64x256x256_S64x256x256x1_0_1_2 _ (ix4 b i j u) (ix3 b i j) (fun a => match a with
    | ⟨0, _⟩ => by show b.val = if (64 : Nat) = 1 then 0 else b.val; rw [if_neg (by decide)]
    | ⟨1, _⟩ => by show i.val = if (256 : Nat) = 1 then 0 else i.val; rw [if_neg (by decide)]
    | ⟨2, _⟩ => by show j.val = if (256 : Nat) = 1 then 0 else j.val; rw [if_neg (by decide)])).trans ?_
  rw [Host.reduce_eq_fold_single (FloatOps.maximumf (F := Ideal) (φ := .f32)) P _ reducesTo_S64x256x256x4_S64x256x256_d3 membersReduce h_S_]
  refine Eq.trans ?_ (fold_max_four fun p => P (ix4 b i j p))
  have hf : (P ∘ membersReduce.lift (ix3 b i j)) = fun k : Fin 4 => P (ix4 b i j k) :=
    funext fun k => congrArg P (lift_members b i j k)
  exact congrArg (fun f => Finset.fold max (Ideal.ofBits .f32 0xFF800000#32 : EReal) f (Finset.univ : Finset (Fin 4))) hf

/-! ## The cosines -/

/-- The offset repeated over the patches is member p's offset. -/
theorem memberOffsets_apply (w : Arr Ideal S1x4) (b : Fin 64) (i j : Fin 256) (p : Fin 4) :
    memberOffsets w (ix4 b i j p) = w (ix2 (0 : Fin 1) p) := by
  unfold memberOffsets
  refine (broadcastInDim_apply _ bcast_S1x1x1x4_S64x256x256x4_0_1_2_3 _ (ix4 b i j p)
    (ix4 (0 : Fin 1) (0 : Fin 1) (0 : Fin 1) p) (fun a => match a with
    | ⟨0, _⟩ => by show (0 : Nat) = if (1 : Nat) = 1 then 0 else b.val; rw [if_pos rfl]
    | ⟨1, _⟩ => by show (0 : Nat) = if (1 : Nat) = 1 then 0 else i.val; rw [if_pos rfl]
    | ⟨2, _⟩ => by show (0 : Nat) = if (1 : Nat) = 1 then 0 else j.val; rw [if_pos rfl]
    | ⟨3, _⟩ => by show p.val = if (4 : Nat) = 1 then 0 else p.val; rw [if_neg (by decide)])).trans ?_
  refine (broadcastInDim_apply _ bcast_S4_S1x1x1x4_3 _ (ix4 (0 : Fin 1) (0 : Fin 1) (0 : Fin 1) p) (ix1 p) (fun a => match a with
    | ⟨0, _⟩ => by show p.val = if (4 : Nat) = 1 then 0 else p.val; rw [if_neg (by decide)])).trans ?_
  refine shapeCast_apply w shapeCasts_S1x4_S4 (ix1 p) (ix2 (0 : Fin 1) p) ?_
  rw [Shape.rowMajor_val_two, Shape.rowMajor_val_one]
  show 0 * 4 + p.val = p.val
  omega

/-- A per-patch value repeated over the four members. -/
theorem overMembers_apply (v : Arr Ideal S64x256x256x1) (b : Fin 64) (i j : Fin 256) (p : Fin 4) :
    broadcastInDim S64x256x256x4 ![0, 1, 2, 3] bcast_S64x256x256x1_S64x256x256x4_0_1_2_3 v (ix4 b i j p)
      = v (ix4 b i j (0 : Fin 1)) :=
  broadcastInDim_apply _ bcast_S64x256x256x1_S64x256x256x4_0_1_2_3 v (ix4 b i j p) (ix4 b i j (0 : Fin 1)) (fun a => match a with
    | ⟨0, _⟩ => by show b.val = if (64 : Nat) = 1 then 0 else b.val; rw [if_neg (by decide)]
    | ⟨1, _⟩ => by show i.val = if (256 : Nat) = 1 then 0 else i.val; rw [if_neg (by decide)]
    | ⟨2, _⟩ => by show j.val = if (256 : Nat) = 1 then 0 else j.val; rw [if_neg (by decide)]
    | ⟨3, _⟩ => by show (0 : Nat) = if (1 : Nat) = 1 then 0 else p.val; rw [if_pos rfl])

/-- The cosine of member p of patch (i, j): its value less the patch's least, over the regularised spread, scaled, offset. -/
theorem memberCosines_apply (P : Arr Ideal S64x256x256x4) (l h : Arr Ideal S64x256x256x1) (w : Arr Ideal S1x4)
    (b : Fin 64) (i j : Fin 256) (p : Fin 4) :
    memberCosines P l h w (ix4 b i j p)
      = Ideal.cos (Ideal.div (P (ix4 b i j p) - l (ix4 b i j (0 : Fin 1)))
          ((h (ix4 b i j (0 : Fin 1)) - l (ix4 b i j (0 : Fin 1))) + eps) * piW + w (ix2 (0 : Fin 1) p)) := by
  show Ideal.cos (Ideal.div
      (P (ix4 b i j p) - broadcastInDim S64x256x256x4 ![0, 1, 2, 3] bcast_S64x256x256x1_S64x256x256x4_0_1_2_3 l (ix4 b i j p))
      (broadcastInDim S64x256x256x4 ![0, 1, 2, 3] bcast_S64x256x256x1_S64x256x256x4_0_1_2_3 (patchSpread l h) (ix4 b i j p))
      * piW + memberOffsets w (ix4 b i j p)) = _
  rw [overMembers_apply, overMembers_apply, memberOffsets_apply]
  rfl

/-! ## The four members' cosines and their products -/

/-- Member 0's cosine at a patch. -/
theorem cosine0_apply (c : Arr Ideal S64x256x256x4) (b : Fin 64) (i j : Fin 256) :
    cosine0 c (ix3 b i j) = c (ix4 b i j (0 : Fin 4)) := by
  unfold cosine0
  refine (shapeCast_apply _ shapeCasts_S64x256x256x1_S64x256x256 (ix3 b i j) (ix4 b i j (0 : Fin 1)) ?_).trans
    (extractStridedSlice_apply ![0, 0, 0, 0] c slices_S64x256x256x4_S64x256x256x1_0_0_0_0 (ix4 b i j (0 : Fin 1))
      (ix4 b i j (0 : Fin 4)) ?_)
  · rw [Shape.rowMajor_val_four, Shape.rowMajor_val_three]
    show ((b.val * 256 + i.val) * 256 + j.val) * 1 + 0 = (b.val * 256 + i.val) * 256 + j.val
    omega
  · intro a
    match a with
    | ⟨0, _⟩ => show b.val = 0 + b.val; omega
    | ⟨1, _⟩ => show i.val = 0 + i.val; omega
    | ⟨2, _⟩ => show j.val = 0 + j.val; omega
    | ⟨3, _⟩ => show (0 : Nat) = 0 + 0; rfl

/-- Member 1's cosine at a patch. -/
theorem cosine1_apply (c : Arr Ideal S64x256x256x4) (b : Fin 64) (i j : Fin 256) :
    cosine1 c (ix3 b i j) = c (ix4 b i j (1 : Fin 4)) := by
  unfold cosine1
  refine (shapeCast_apply _ shapeCasts_S64x256x256x1_S64x256x256 (ix3 b i j) (ix4 b i j (0 : Fin 1)) ?_).trans
    (extractStridedSlice_apply ![0, 0, 0, 1] c slices_S64x256x256x4_S64x256x256x1_0_0_0_1 (ix4 b i j (0 : Fin 1))
      (ix4 b i j (1 : Fin 4)) ?_)
  · rw [Shape.rowMajor_val_four, Shape.rowMajor_val_three]
    show ((b.val * 256 + i.val) * 256 + j.val) * 1 + 0 = (b.val * 256 + i.val) * 256 + j.val
    omega
  · intro a
    match a with
    | ⟨0, _⟩ => show b.val = 0 + b.val; omega
    | ⟨1, _⟩ => show i.val = 0 + i.val; omega
    | ⟨2, _⟩ => show j.val = 0 + j.val; omega
    | ⟨3, _⟩ => show (1 : Nat) = 1 + 0; rfl

/-- Member 2's cosine at a patch. -/
theorem cosine2_apply (c : Arr Ideal S64x256x256x4) (b : Fin 64) (i j : Fin 256) :
    cosine2 c (ix3 b i j) = c (ix4 b i j (2 : Fin 4)) := by
  unfold cosine2
  refine (shapeCast_apply _ shapeCasts_S64x256x256x1_S64x256x256 (ix3 b i j) (ix4 b i j (0 : Fin 1)) ?_).trans
    (extractStridedSlice_apply ![0, 0, 0, 2] c slices_S64x256x256x4_S64x256x256x1_0_0_0_2 (ix4 b i j (0 : Fin 1))
      (ix4 b i j (2 : Fin 4)) ?_)
  · rw [Shape.rowMajor_val_four, Shape.rowMajor_val_three]
    show ((b.val * 256 + i.val) * 256 + j.val) * 1 + 0 = (b.val * 256 + i.val) * 256 + j.val
    omega
  · intro a
    match a with
    | ⟨0, _⟩ => show b.val = 0 + b.val; omega
    | ⟨1, _⟩ => show i.val = 0 + i.val; omega
    | ⟨2, _⟩ => show j.val = 0 + j.val; omega
    | ⟨3, _⟩ => show (2 : Nat) = 2 + 0; rfl

/-- Member 3's cosine at a patch. -/
theorem cosine3_apply (c : Arr Ideal S64x256x256x4) (b : Fin 64) (i j : Fin 256) :
    cosine3 c (ix3 b i j) = c (ix4 b i j (3 : Fin 4)) := by
  unfold cosine3
  refine (shapeCast_apply _ shapeCasts_S64x256x256x1_S64x256x256 (ix3 b i j) (ix4 b i j (0 : Fin 1)) ?_).trans
    (extractStridedSlice_apply ![0, 0, 0, 3] c slices_S64x256x256x4_S64x256x256x1_0_0_0_3 (ix4 b i j (0 : Fin 1))
      (ix4 b i j (3 : Fin 4)) ?_)
  · rw [Shape.rowMajor_val_four, Shape.rowMajor_val_three]
    show ((b.val * 256 + i.val) * 256 + j.val) * 1 + 0 = (b.val * 256 + i.val) * 256 + j.val
    omega
  · intro a
    match a with
    | ⟨0, _⟩ => show b.val = 0 + b.val; omega
    | ⟨1, _⟩ => show i.val = 0 + i.val; omega
    | ⟨2, _⟩ => show j.val = 0 + j.val; omega
    | ⟨3, _⟩ => show (3 : Nat) = 3 + 0; rfl

/-- Off the joined axis a unit piece's index has the joined array's coordinates. -/
theorem piece_coords (b : Fin 64) (i j : Fin 256) (q : Fin 4) :
    ∀ a : Fin S64x256x256x1.rank, a.cast (rfl : S64x256x256x1.rank = S64x256x256x4.rank) ≠ (3 : Fin S64x256x256x4.rank) →
      ((ix4 b i j (0 : Fin 1) : S64x256x256x1.Idx) a).val = ((ix4 b i j q : S64x256x256x4.Idx) (a.cast rfl)).val := by
  intro a ha
  match a, ha with
  | ⟨0, _⟩, _ => rfl
  | ⟨1, _⟩, _ => rfl
  | ⟨2, _⟩, _ => rfl
  | ⟨3, _⟩, ha => exact absurd (Fin.ext rfl) ha

/-- Four unit pieces joined along the last axis, read at last coordinate q: piece q. -/
theorem joined_apply (v0 v1 v2 v3 : Arr Ideal S64x256x256x1) (b : Fin 64) (i j : Fin 256) (q : Fin 4) :
    concatenate S64x256x256x4 3 [⟨S64x256x256x1, v0⟩, ⟨S64x256x256x1, v1⟩, ⟨S64x256x256x1, v2⟩, ⟨S64x256x256x1, v3⟩] concatenates_S64x256x256x1_S64x256x256x1_S64x256x256x1_S64x256x256x1_S64x256x256x4_d3 (ix4 b i j q)
      = (![v0, v1, v2, v3] q) (ix4 b i j (0 : Fin 1)) := by
  match q with
  | ⟨0, _⟩ =>
    exact concatenate_apply_piece (t := S64x256x256x4) 3 [⟨S64x256x256x1, v0⟩, ⟨S64x256x256x1, v1⟩, ⟨S64x256x256x1, v2⟩, ⟨S64x256x256x1, v3⟩] concatenates_S64x256x256x1_S64x256x256x1_S64x256x256x1_S64x256x256x1_S64x256x256x4_d3
      _ 0 (by simp only [List.length_cons, List.length_nil]; omega) S64x256x256x1 v0 rfl rfl 0 rfl (ix4 b i j (0 : Fin 1)) (piece_coords b i j _) rfl
  | ⟨1, _⟩ =>
    exact concatenate_apply_piece (t := S64x256x256x4) 3 [⟨S64x256x256x1, v0⟩, ⟨S64x256x256x1, v1⟩, ⟨S64x256x256x1, v2⟩, ⟨S64x256x256x1, v3⟩] concatenates_S64x256x256x1_S64x256x256x1_S64x256x256x1_S64x256x256x1_S64x256x256x4_d3
      _ 1 (by simp only [List.length_cons, List.length_nil]; omega) S64x256x256x1 v1 rfl rfl 1 rfl (ix4 b i j (0 : Fin 1)) (piece_coords b i j _) rfl
  | ⟨2, _⟩ =>
    exact concatenate_apply_piece (t := S64x256x256x4) 3 [⟨S64x256x256x1, v0⟩, ⟨S64x256x256x1, v1⟩, ⟨S64x256x256x1, v2⟩, ⟨S64x256x256x1, v3⟩] concatenates_S64x256x256x1_S64x256x256x1_S64x256x256x1_S64x256x256x1_S64x256x256x4_d3
      _ 2 (by simp only [List.length_cons, List.length_nil]; omega) S64x256x256x1 v2 rfl rfl 2 rfl (ix4 b i j (0 : Fin 1)) (piece_coords b i j _) rfl
  | ⟨3, _⟩ =>
    exact concatenate_apply_piece (t := S64x256x256x4) 3 [⟨S64x256x256x1, v0⟩, ⟨S64x256x256x1, v1⟩, ⟨S64x256x256x1, v2⟩, ⟨S64x256x256x1, v3⟩] concatenates_S64x256x256x1_S64x256x256x1_S64x256x256x1_S64x256x256x1_S64x256x256x4_d3
      _ 3 (by simp only [List.length_cons, List.length_nil]; omega) S64x256x256x1 v3 rfl rfl 3 rfl (ix4 b i j (0 : Fin 1)) (piece_coords b i j _) rfl

/-- Output q of patch (i, j): the q-th product of the patch's four cosines. -/
theorem productsOf_apply (c : Arr Ideal S64x256x256x4) (b : Fin 64) (q : Fin 4) (i j : Fin 256) :
    productsOf c (ix4 b q i j) = expect (fun p => c (ix4 b i j p)) q := by
  unfold productsOf products
  refine (transpose_apply [0, 3, 1, 2] _ transposes_S64x256x256x4_S64x4x256x256_0_3_1_2 (ix4 b q i j) (ix4 b i j q)
    (fun a => match a with
      | ⟨0, _⟩ => rfl
      | ⟨1, _⟩ => rfl
      | ⟨2, _⟩ => rfl
      | ⟨3, _⟩ => rfl)).trans ?_
  refine (joined_apply _ _ _ _ b i j q).trans ?_
  match q with
  | ⟨0, _⟩ =>
    show unitLast (mulf (mulf (cosine1 c) (cosine2 c)) (cosine3 c)) (ix4 b i j (0 : Fin 1)) = _
    rw [unitLast_apply]
    show cosine1 c (ix3 b i j) * cosine2 c (ix3 b i j) * cosine3 c (ix3 b i j) = _
    rw [cosine1_apply, cosine2_apply, cosine3_apply]
    rfl
  | ⟨1, _⟩ =>
    show unitLast (mulf (cosine0 c) (cosine1 c)) (ix4 b i j (0 : Fin 1)) = _
    rw [unitLast_apply]
    show cosine0 c (ix3 b i j) * cosine1 c (ix3 b i j) = _
    rw [cosine0_apply, cosine1_apply]
    rfl
  | ⟨2, _⟩ =>
    show unitLast (mulf (mulf (cosine0 c) (cosine1 c)) (cosine2 c)) (ix4 b i j (0 : Fin 1)) = _
    rw [unitLast_apply]
    show cosine0 c (ix3 b i j) * cosine1 c (ix3 b i j) * cosine2 c (ix3 b i j) = _
    rw [cosine0_apply, cosine1_apply, cosine2_apply]
    rfl
  | ⟨3, _⟩ =>
    show unitLast (mulf (mulf (mulf (cosine0 c) (cosine1 c)) (cosine2 c)) (cosine3 c)) (ix4 b i j (0 : Fin 1)) = _
    rw [unitLast_apply]
    show cosine0 c (ix3 b i j) * cosine1 c (ix3 b i j) * cosine2 c (ix3 b i j) * cosine3 c (ix3 b i j) = _
    rw [cosine0_apply, cosine1_apply, cosine2_apply, cosine3_apply]
    rfl

/-! ## The result is the specification -/

/-- The cosine of member p of patch (i, j), from the image: the specification's `wire`. -/
theorem wire_apply (x : Arr Ideal S64x2x512x512) (w : Arr Ideal S1x4) (b : Fin 64) (i j : Fin 256) (p : Fin 4) :
    memberCosines (patchMembers (modulusImage x)) (patchLeast (patchMembers (modulusImage x)))
        (patchGreatest (patchMembers (modulusImage x))) w (ix4 b i j p)
      = wire (fun p' => modulus (x (ix4 b (0 : Fin 2) (prow i p') (pcol j p'))) (x (ix4 b (1 : Fin 2) (prow i p') (pcol j p'))))
          (fun p' => w (ix2 (0 : Fin 1) p')) p := by
  rw [memberCosines_apply, patchLeast_apply, patchGreatest_apply]
  simp only [patchMembers_apply, modulusImage_apply]
  rfl

/-- The reference's result at (b, q, i, j) is `G` there. -/
theorem result_apply (x : Arr Ideal S64x2x512x512) (w : Arr Ideal S1x4) (b : Fin 64) (q : Fin 4) (i j : Fin 256) :
    result x w (ix4 b q i j) = G x w (ix4 b q i j) := by
  refine Eq.trans ?_ (G_apply x w b q i j).symm
  refine (productsOf_apply _ b q i j).trans ?_
  exact congrArg (fun f => expect f q) (funext fun p => wire_apply x w b i j p)

/-- The reference's result is `G` of its arguments. -/
theorem result_eq (x : Arr Ideal S64x2x512x512) (w : Arr Ideal S1x4) : result x w = G x w := by
  funext o
  obtain ⟨b, q, i, j, rfl⟩ : ∃ (b : Fin 64) (q : Fin 4) (i j : Fin 256), o = ix4 b q i j := ⟨o 0, o 1, o 2, o 3, eq_ix4 o⟩
  exact result_apply x w b q i j

/-- On every device, from any memory with zero counters: every weakly fair execution of the reference terminates with
    the result buffer at `G` of the arguments' launch contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v47)
          = Cert.Quanv.G (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run _ _ _).mono (fun _ h c => ⟨(h c).1.trans (result_eq _ _), (h c).2⟩) (run_result m ρ)

end Cert.Quanv.Ref

end
-- ==== Proof.lean ====
/-
  The five claims of the certificate.

  Both programs compute, for every 2 × 2 patch of a complex image, four products of cosines: from the patch's four
  moduli `μ p = √(re·re + im·im)`, its least `lo` and greatest `hi`, the angles `(μ p − lo) / ((hi − lo) + ε) · π̃ + w p`
  and their cosines `c p`, the outputs `c1·c2·c3, c0·c1, c0·c1·c2, c0·c1·c2·c3` (Proof/Spec.lean: `Cert.Quanv.G`). The kernel
  first re-lays the image on the host so that a patch's four members lie on one axis, then works on blocks of two batch
  entries, taking `lo` and `hi` by pairwise minima and maxima; the reference forms the modulus image, cuts it into
  patches and reduces over the member axis from +∞ and −∞. Over the extended reals the two agree operation by operation —
  the same two literal words `ε` and `π̃`, the same grouping of every sum and product — up to where the re-laying
  happens and how the four-way minimum and maximum are bracketed; `min` and `max` are associative with +∞ and −∞
  neutral, so the two results are equal for every input, and the precondition is not used.

  The frames of the kernel and of its idealization are the generated frame of a one-region kernel whose body loads and
  stores through literal rectangles. The reference's frame is its run with the result dropped. The idealization rewrote
  no operation, so `preserves` is `True`. For `algebraic`: the kernel's run ends with the result array at `G x w`
  (Proof/KArray.lean, over Proof/KBlock.lean, KBody.lean, KLayout.lean), and so does the reference's (Proof/RefValue.lean over
  Proof/RefRun.lean).
-/
import proofs.«167130_j40931038331593_2_alg».proof.Defs
import proofs.«167130_j40931038331593_2_alg».proof.Proof.Gen.Kernel
import proofs.«167130_j40931038331593_2_alg».proof.Proof.Gen.Kernel.Skeleton
import proofs.«167130_j40931038331593_2_alg».proof.Proof.Gen.Kernel.Launch
import proofs.«167130_j40931038331593_2_alg».proof.Proof.Gen.Kernel.Points
import proofs.«167130_j40931038331593_2_alg».proof.Proof.Gen.Kernel.Frame
import proofs.«167130_j40931038331593_2_alg».proof.Proof.Gen.KernelIdeal
import proofs.«167130_j40931038331593_2_alg».proof.Proof.Gen.KernelIdeal.Skeleton
import proofs.«167130_j40931038331593_2_alg».proof.Proof.Gen.KernelIdeal.Launch
import proofs.«167130_j40931038331593_2_alg».proof.Proof.Gen.KernelIdeal.Points
import proofs.«167130_j40931038331593_2_alg».proof.Proof.Gen.KernelIdeal.Frame
import proofs.«167130_j40931038331593_2_alg».proof.Proof.Gen.ReferenceIdeal
import proofs.«167130_j40931038331593_2_alg».proof.Proof.Gen.Pre_finite_inputs
import proofs.«167130_j40931038331593_2_alg».proof.Proof.Gen.KernelIdeal.Value
import proofs.«167130_j40931038331593_2_alg».proof.Proof.KArray
import proofs.«167130_j40931038331593_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run, the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.Quanv.Ref.run m ρ)

/-- From memories that agree on the arguments both idealized programs end with the result at `G` of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.Quanv.Kernel.run m ρ, ?_⟩
  refine (θ_run Cert.ReferenceIdeal.defs _ _).mono (fun _ h c => ⟨(h c).1.trans ?_, (h c).2⟩) (Cert.Quanv.Ref.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
